-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S11008x4096 : Shape := ⟨2, ![11008, 4096]⟩
abbrev S11008 : Shape := ⟨1, ![11008]⟩
abbrev S4096x11008 : Shape := ⟨2, ![4096, 11008]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_
  bcast_S_S4096x11008 : S_.BroadcastsInDim S4096x11008 (![] : Fin 0 → Fin S4096x11008.rank)
  reducesTo_S4096x11008_S_d0_1 : S4096x11008.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S11008 .f32) (main_arg5 : FVec F S4096x11008 .f32) (main_arg6 : FVec F S4096 .f32) (main_v13 : IVec S_ 1) (main_v16 : IVec S11008x4096 1) : IVec S_ 1 :=
  let main_c_5 : IVec S_ 1 := constantI S_ 1 1#1
  let main_v17 : IVec S_ 1 := (fun x v => Host.reduce IntOp.andi x v reducesTo_S11008x4096_S_d0_1 h_S_) main_v16 main_c_5
  let main_v18 : IVec S_ 1 := andi main_v13 main_v17
  let main_v19 : FVec F S11008 .f32 := Host.absf main_arg4
  let main_cst_6 : FVec F S_ .f32 := constant S_ .f32 0x7F800000#32
  let main_v20 : FVec F S11008 .f32 := broadcastInDim S11008 ![] bcast_S_S11008 main_cst_6
  let main_v21 : IVec S11008 1 := cmpf .olt main_v19 main_v20
  let main_c_7 : IVec S_ 1 := constantI S_ 1 1#1
  let main_v22 : IVec S_ 1 := (fun x v => Host.reduce IntOp.andi x v reducesTo_S11008_S_d0 h_S_) main_v21 main_c_7
  let main_v23 : IVec S_ 1 := andi main_v18 main_v22
  let main_v24 : FVec F S4096x11008 .f32 := Host.absf main_arg5
  let main_cst_8 : FVec F S_ .f32 := constant S_ .f32 0x7F800000#32
  let main_v25 : FVec F S4096x11008 .f32 := broadcastInDim S4096x11008 ![] bcast_S_S4096x11008 main_cst_8
  let main_v26 : IVec S4096x11008 1 := cmpf .olt main_v24 main_v25
  let main_c_9 : IVec S_ 1 := constantI S_ 1 1#1
  let main_v27 : IVec S_ 1 := (fun x v => Host.reduce IntOp.andi x v reducesTo_S4096x11008_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S2x2048x4096 .f32) (main_arg1 : FVec F S11008x4096 .f32) (main_arg2 : FVec F S11008 .f32) (main_arg3 : FVec F S11008x4096 .f32) (main_arg4 : FVec F S11008 .f32) (main_arg5 : FVec F S4096x11008 .f32) (main_arg6 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S11008x4096 .f32 := Host.absf main_arg3
  let main_cst_4 : FVec F S_ .f32 := constant S_ .f32 0x7F800000#32
  let main_v15 : FVec F S11008x4096 .f32 := broadcastInDim S11008x4096 ![] bcast_S_S11008x4096 main_cst_4
  let main_v16 : IVec S11008x4096 1 := cmpf .olt main_v14 main_v15
  fn_part1 (F := F) main_arg4 main_arg5 main_arg6 main_v13 main_v16
-- ==== Kernel.lean ====
abbrev S2x2048x4096 : Shape := ⟨3, ![2, 2048, 4096]⟩
abbrev S11008x4096 : Shape := ⟨2, ![11008, 4096]⟩
abbrev S11008 : Shape := ⟨1, ![11008]⟩
abbrev S4096x11008 : Shape := ⟨2, ![4096, 11008]⟩
abbrev S4096 : Shape := ⟨1, ![4096]⟩
abbrev S4096x4096 : Shape := ⟨2, ![4096, 4096]⟩
abbrev S1x11008 : Shape := ⟨2, ![1, 11008]⟩
abbrev S1x4096 : Shape := ⟨2, ![1, 4096]⟩
abbrev S512x4096 : Shape := ⟨2, ![512, 4096]⟩
abbrev S256x4096 : Shape := ⟨2, ![256, 4096]⟩
abbrev S1x256 : Shape := ⟨2, ![1, 256]⟩
abbrev S4096x256 : Shape := ⟨2, ![4096, 256]⟩
abbrev S512x256 : Shape := ⟨2, ![512, 256]⟩

abbrev nBuf : Space → Nat
  | .hbm => 17
  | .vmem => 15
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .f32⟩
  | .hbm, ⟨2, _⟩ => ⟨S11008, .f32⟩
  | .hbm, ⟨3, _⟩ => ⟨S11008x4096, .f32⟩
  | .hbm, ⟨4, _⟩ => ⟨S11008, .f32⟩
  | .hbm, ⟨5, _⟩ => ⟨S4096x11008, .f32⟩
  | .hbm, ⟨6, _⟩ => ⟨S4096, .f32⟩
  | .hbm, ⟨7, _⟩ => ⟨S4096x4096, .f32⟩
  | .hbm, ⟨8, _⟩ => ⟨S4096x4096, .bf16⟩
  | .hbm, ⟨9, _⟩ => ⟨S11008x4096, .bf16⟩
  | .hbm, ⟨10, _⟩ => ⟨S11008x4096, .bf16⟩
  | .hbm, ⟨11, _⟩ => ⟨S4096x11008, .bf16⟩
  | .hbm, ⟨12, _⟩ => ⟨S1x11008, .f32⟩
  | .hbm, ⟨13, _⟩ => ⟨S1x11008, .f32⟩
  | .hbm, ⟨14, _⟩ => ⟨S1x4096, .f32⟩
  | .hbm, ⟨15, _⟩ => ⟨S4096x4096, .f32⟩
  | .hbm, ⟨16, _⟩ => ⟨S2x2048x4096, .f32⟩
  | .local _ .vmem, ⟨0, _⟩ => ⟨S512x4096, .bf16⟩
  | .local _ .vmem, ⟨1, _⟩ => ⟨S512x4096, .bf16⟩
  | .local _ .vmem, ⟨2, _⟩ => ⟨S256x4096, .bf16⟩
  | .local _ .vmem, ⟨3, _⟩ => ⟨S256x4096, .bf16⟩
  | .local _ .vmem, ⟨4, _⟩ => ⟨S1x256, .f32⟩
  | .local _ .vmem, ⟨5, _⟩ => ⟨S1x256, .f32⟩
  | .local _ .vmem, ⟨6, _⟩ => ⟨S256x4096, .bf16⟩
  | .local _ .vmem, ⟨7, _⟩ => ⟨S256x4096, .bf16⟩
  | .local _ .vmem, ⟨8, _⟩ => ⟨S1x256, .f32⟩
  | .local _ .vmem, ⟨9, _⟩ => ⟨S1x256, .f32⟩
  | .local _ .vmem, ⟨10, _⟩ => ⟨S4096x256, .bf16⟩
  | .local _ .vmem, ⟨11, _⟩ => ⟨S4096x256, .bf16⟩
  | .local _ .vmem, ⟨12, _⟩ => ⟨S1x4096, .f32⟩
  | .local _ .vmem, ⟨13, _⟩ => ⟨S512x4096, .f32⟩
  | .local _ .vmem, ⟨14, _⟩ => ⟨S512x4096, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 43], ![false, false]⟩

def k0_cond1 (i : grid0.Coords) : BitVec 1 :=
  let arg1 : BitVec 32 := BitVec.ofNat 32 (i 1).val
  let c0_i32 : BitVec 32 := 0#32
  let v26 : BitVec 1 := Scalar.cmpi .eq arg1 c0_i32
  let v27 : BitVec 32 := Scalar.extui v26
  let c0_i32_13 : BitVec 32 := 0#32
  let v28 : BitVec 1 := Scalar.cmpi .ne v27 c0_i32_13
  v28

def k0_cond2 (i : grid0.Coords) : BitVec 1 :=
  let arg1 : BitVec 32 := BitVec.ofNat 32 (i 1).val
  let c0_i32_14 : BitVec 32 := 0#32
  let v29 : BitVec 1 := Scalar.cmpi .sgt arg1 c0_i32_14
  let v30 : BitVec 32 := Scalar.extui v29
  let c0_i32_15 : BitVec 32 := 0#32
  let v31 : BitVec 1 := Scalar.cmpi .ne v30 c0_i32_15
  v31

def k0_cond3 (i : grid0.Coords) : BitVec 1 :=
  let arg1 : BitVec 32 := BitVec.ofNat 32 (i 1).val
  let c42_i32 : BitVec 32 := 42#32
  let v32 : BitVec 1 := Scalar.cmpi .eq arg1 c42_i32
  let v33 : BitVec 32 := Scalar.extui v32
  let c0_i32_16 : BitVec 32 := 0#32
  let v34 : BitVec 1 := Scalar.cmpi .ne v33 c0_i32_16
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S2x2048x4096_S4096x4096 : S2x2048x4096.ShapeCasts S4096x4096
  bitsLt_bf16_f32 : FTy.bits .bf16 < FTy.bits .f32
  shapeCasts_S11008_S1x11008 : S11008.ShapeCasts S1x11008
  shapeCasts_S4096_S1x4096 : S4096.ShapeCasts S1x4096
  shapeCasts_S4096x4096_S2x2048x4096 : S4096x4096.ShapeCasts S2x2048x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  transposes_S256x4096_p1_0_S4096x256 : S256x4096.Transposes [1, 0] S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  transposes_S4096x256_p1_0_S256x4096 : S4096x256.Transposes [1, 0] S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  dot_S512x4096_S4096x256_S512x256_1_0_0_1_n_n_wf : DotDims.WF S512x4096 S4096x256 S512x256 [1] [0] [0] [1] [] []
  dot_S512x256_S256x4096_S512x4096_1_0_0_1_n_n_wf : DotDims.WF S512x256 S256x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S11008x4096.size a
  hwx0_3 : ∀ i : grid0.Coords, EltTy.bits .bf16 = 32 ∨ (Rect.block (s := S11008x4096) S256x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x11008.size a
  hwx0_4 : ∀ i : grid0.Coords, EltTy.bits .f32 = 32 ∨ (Rect.block (s := S1x11008) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S4096x11008.size a
  hwx0_5 : ∀ i : grid0.Coords, EltTy.bits .bf16 = 32 ∨ (Rect.block (s := S4096x11008) S4096x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x4096.size a ≤ S4096x4096.size a
  hwx0_7 : ∀ i : grid0.Coords, EltTy.bits .f32 = 32 ∨ (Rect.block (s := S4096x4096) S512x4096.size (cc0_transform_7 i) (hinb0_7 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf

abbrev win0_0 : Pipeline.Window sig grid0 :=
  Pipeline.Window.ofSpec (Memref.whole main_call0_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v5) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v6) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4) S4096x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v7) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v8) S512x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond1 i == 1#1) && !(k0_cond2 i == 1#1) && !(k0_cond3 i == 1#1) | ⟨_ + 8, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S11008x4096 : Shape := ⟨2, ![11008, 4096]⟩
abbrev S11008 : Shape := ⟨1, ![11008]⟩
abbrev S4096x11008 : Shape := ⟨2, ![4096, 11008]⟩
abbrev S4096 : Shape := ⟨1, ![4096]⟩
abbrev S2x2048x11008 : Shape := ⟨3, ![2, 2048, 11008]⟩
abbrev S1x1x11008 : Shape := ⟨3, ![1, 1, 11008]⟩
abbrev S_ : Shape := ⟨0, ![]⟩
abbrev S1x1x4096 : Shape := ⟨3, ![1, 1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .f32⟩
  | .hbm, ⟨2, _⟩ => ⟨S11008, .f32⟩
  | .hbm, ⟨3, _⟩ => ⟨S11008x4096, .f32⟩
  | .hbm, ⟨4, _⟩ => ⟨S11008, .f32⟩
  | .hbm, ⟨5, _⟩ => ⟨S4096x11008, .f32⟩
  | .hbm, ⟨6, _⟩ => ⟨S4096, .f32⟩
  | .hbm, ⟨7, _⟩ => ⟨S2x2048x11008, .f32⟩
  | .hbm, ⟨8, _⟩ => ⟨S1x1x11008, .f32⟩
  | .hbm, ⟨9, _⟩ => ⟨S2x2048x11008, .f32⟩
  | .hbm, ⟨10, _⟩ => ⟨S2x2048x11008, .f32⟩
  | .hbm, ⟨11, _⟩ => ⟨S2x2048x11008, .f32⟩
  | .hbm, ⟨12, _⟩ => ⟨S2x2048x11008, .f32⟩
  | .hbm, ⟨13, _⟩ => ⟨S_, .f32⟩
  | .hbm, ⟨14, _⟩ => ⟨S2x2048x11008, .f32⟩
  | .hbm, ⟨15, _⟩ => ⟨S2x2048x11008, .f32⟩
  | .hbm, ⟨16, _⟩ => ⟨S_, .f32⟩
  | .hbm, ⟨17, _⟩ => ⟨S2x2048x11008, .f32⟩
  | .hbm, ⟨18, _⟩ => ⟨S2x2048x11008, .f32⟩
  | .hbm, ⟨19, _⟩ => ⟨S2x2048x11008, .f32⟩
  | .hbm, ⟨20, _⟩ => ⟨S2x2048x11008, .f32⟩
  | .hbm, ⟨21, _⟩ => ⟨S1x1x11008, .f32⟩
  | .hbm, ⟨22, _⟩ => ⟨S2x2048x11008, .f32⟩
  | .hbm, ⟨23, _⟩ => ⟨S2x2048x11008, .f32⟩
  | .hbm, ⟨24, _⟩ => ⟨S2x2048x11008, .f32⟩
  | .hbm, ⟨25, _⟩ => ⟨S2x2048x4096, .f32⟩
  | .hbm, ⟨26, _⟩ => ⟨S1x1x4096, .f32⟩
  | .hbm, ⟨27, _⟩ => ⟨S2x2048x4096, .f32⟩
  | .hbm, ⟨28, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩

abbrev nD : Nat := 1
abbrev τ : Topo := Topo.v7x

variable {F : FTy → Type} [FloatOps F]

class Facts₀ : Prop where
  bcast_S11008_S1x1x11008_2 : S11008.BroadcastsInDim S1x1x11008 (![2] : Fin 1 → Fin S1x1x11008.rank)
  bcast_S1x1x11008_S2x2048x11008_0_1_2 : S1x1x11008.BroadcastsInDim S2x2048x11008 (![0, 1, 2] : Fin 3 → Fin S2x2048x11008.rank)
  bcast_S_S2x2048x11008 : S_.BroadcastsInDim S2x2048x11008 (![] : Fin 0 → Fin S2x2048x11008.rank)
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  dot_S2x2048x4096_S11008x4096_S2x2048x11008_2_1_01_0_n_n_wf : DotDims.WF S2x2048x4096 S11008x4096 S2x2048x11008 [2] [1] [0, 1] [0] [] []
  dot_S2x2048x11008_S4096x11008_S2x2048x4096_2_1_01_0_n_n_wf : DotDims.WF S2x2048x11008 S4096x11008 S2x2048x4096 [2] [1] [0, 1] [0] [] []

variable [Facts₀]

def dot_S2x2048x4096_S11008x4096_S2x2048x11008_2_1_01_0_n_n : DotDims S2x2048x4096 S11008x4096 S2x2048x11008 where
  lhsContracting := [2]
  rhsContracting := [1]
  lhsNonContracting := [0, 1]
  rhsNonContracting := [0]
  lhsBatch := []
  rhsBatch := []
  wf := dot_S2x2048x4096_S11008x4096_S2x2048x11008_2_1_01_0_n_n_wf
def dot_S2x2048x11008_S4096x11008_S2x2048x4096_2_1_01_0_n_n : DotDims S2x2048x11008 S4096x11008 S2x2048x4096 where
  lhsContracting := [2]
  rhsContracting := [1]
  lhsNonContracting := [0, 1]
  rhsNonContracting := [0]
  lhsBatch := []
  rhsBatch := []
  wf := dot_S2x2048x11008_S4096x11008_S2x2048x4096_2_1_01_0_n_n_wf

class Facts : Prop extends Facts₀ where

variable [Facts]
-- ==== Proof.RunsKernel.lean ====
/-
  The feed-forward kernel's body run on any staging memrefs, once for each of the three kinds of grid point: the
  first tile of a row block stores the tile's partial product into the output block's buffer; a middle tile adds its
  partial product to what the buffer holds; the last tile does the same and then adds the output bias to every row.
-/
import proofs.«105601_j27573690040806_2_alg».proof.Proof.Gen.Kernel.Frame
import proofs.«105601_j27573690040806_2_alg».proof.Proof.Gen.Kernel.Skeleton
import Idealize.ShloMosaic.Lib.Pipeline.Frame
import Idealize.ShloMosaic.Lib.Pipeline.FrameSuffix
import Idealize.ShloMosaic.Lib.Pipeline.Value
import Idealize.ShloMosaic.Lib.Exec.Geometry

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-! ## The body on any staging memrefs, one run per kind of point -/

set_option maxHeartbeats 2000000 in
/-- First tile: the output buffer, whatever it held, ends at the partial product. -/
theorem sound_A (c : Dev nD) (E : Set ℕ) (i : grid0.Coords)
    (arg2 : Memref sig .tc .vmem S512x4096 .bf16) (harg2 : arg2.IsWhole) (arg3 : Memref sig .tc .vmem S256x4096 .bf16) (harg3 : arg3.IsWhole)
    (arg4 : Memref sig .tc .vmem S1x256 .f32) (harg4 : arg4.IsWhole) (arg5 : Memref sig .tc .vmem S256x4096 .bf16) (harg5 : arg5.IsWhole)
    (arg6 : Memref sig .tc .vmem S1x256 .f32) (harg6 : arg6.IsWhole) (arg7 : Memref sig .tc .vmem S4096x256 .bf16) (harg7 : arg7.IsWhole)
    (arg8 : Memref sig .tc .vmem S1x4096 .f32) (harg8 : arg8.IsWhole) (arg9 : Memref sig .tc .vmem S512x4096 .f32) (harg9 : arg9.IsWhole)
    (h1 : k0_cond1 i = 1#1) (h2 : ¬k0_cond2 i = 1#1) (h3 : ¬k0_cond3 i = 1#1)
    (x0 : Vec F S512x4096 .bf16) (x1 : Vec F S256x4096 .bf16) (x2 : Vec F S1x256 .f32) (x3 : Vec F S256x4096 .bf16)
    (x4 : Vec F S1x256 .f32) (x5 : Vec F S4096x256 .bf16) (x6 : Vec F S1x4096 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare (k0_pay2 x0 x1 x3 x2 x4 x5)) -∗ K ⟨⟩))
      ⊢ wp frame (wpE (defs₀ (F := F)) Variants.none c none) E (cc0__mlp_kernel i arg2 harg2 arg3 harg3 arg4 harg4 arg5 harg5 arg6 harg6 arg7 harg7 arg8 harg8 arg9 harg9) K := by
  simp only [cc0__mlp_kernel_eq_skeleton]; unfold cc0__mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  swap; · iexact H7
  ipureintro
  rw [View.read_writes_eq_canon _ _ _ (fun y => ⟨_, List.mem_singleton_self _, View.mem_set_unit_zero hz inb_S512x4096_S512x4096_0_0 y⟩), View.canon_unit_zero hz]
  simp only [View.readAt_eq_ld, Memref.IsWhole.read_unread, View.ld_unit_zero (S := S512x4096) hz, View.ld_unit_zero (S := S256x4096) hz, View.ld_unit_zero (S := S1x256) hz, View.ld_unit_zero (S := S4096x256) hz, View.ld_unit_zero (S := S1x4096) hz]

set_option maxHeartbeats 2000000 in
/-- Middle tile: the output buffer ends at what it held plus the partial product. -/
theorem sound_B (c : Dev nD) (E : Set ℕ) (i : grid0.Coords)
    (arg2 : Memref sig .tc .vmem S512x4096 .bf16) (harg2 : arg2.IsWhole) (arg3 : Memref sig .tc .vmem S256x4096 .bf16) (harg3 : arg3.IsWhole)
    (arg4 : Memref sig .tc .vmem S1x256 .f32) (harg4 : arg4.IsWhole) (arg5 : Memref sig .tc .vmem S256x4096 .bf16) (harg5 : arg5.IsWhole)
    (arg6 : Memref sig .tc .vmem S1x256 .f32) (harg6 : arg6.IsWhole) (arg7 : Memref sig .tc .vmem S4096x256 .bf16) (harg7 : arg7.IsWhole)
    (arg8 : Memref sig .tc .vmem S1x4096 .f32) (harg8 : arg8.IsWhole) (arg9 : Memref sig .tc .vmem S512x4096 .f32) (harg9 : arg9.IsWhole)
    (h1 : ¬k0_cond1 i = 1#1) (h2 : k0_cond2 i = 1#1) (h3 : ¬k0_cond3 i = 1#1)
    (x0 : Vec F S512x4096 .bf16) (x1 : Vec F S256x4096 .bf16) (x2 : Vec F S1x256 .f32) (x3 : Vec F S256x4096 .bf16)
    (x4 : Vec F S1x256 .f32) (x5 : Vec F S4096x256 .bf16) (x6 : Vec F S1x4096 .f32) (xo : Vec F S512x4096 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare xo
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare (k0_pay3 x0 x1 x3 x2 x4 x5 xo)) -∗ K ⟨⟩))
      ⊢ wp frame (wpE (defs₀ (F := F)) Variants.none c none) E (cc0__mlp_kernel i arg2 harg2 arg3 harg3 arg4 harg4 arg5 harg5 arg6 harg6 arg7 harg7 arg8 harg8 arg9 harg9) K := by
  simp only [cc0__mlp_kernel_eq_skeleton]; unfold cc0__mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  obtain rfl := harg9.eq_unread hf7
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  swap; · iexact H7
  ipureintro
  rw [View.read_writes_eq_canon _ _ _ (fun y => ⟨_, List.mem_singleton_self _, View.mem_set_unit_zero hz inb_S512x4096_S512x4096_0_0 y⟩), View.canon_unit_zero hz]
  simp only [View.readAt_eq_ld, Memref.IsWhole.read_unread, View.ld_unit_zero (S := S512x4096) hz, View.ld_unit_zero (S := S256x4096) hz, View.ld_unit_zero (S := S1x256) hz, View.ld_unit_zero (S := S4096x256) hz, View.ld_unit_zero (S := S1x4096) hz]

set_option maxHeartbeats 2000000 in
/-- Last tile: the same, and then the output bias added to every row. -/
theorem sound_C (c : Dev nD) (E : Set ℕ) (i : grid0.Coords)
    (arg2 : Memref sig .tc .vmem S512x4096 .bf16) (harg2 : arg2.IsWhole) (arg3 : Memref sig .tc .vmem S256x4096 .bf16) (harg3 : arg3.IsWhole)
    (arg4 : Memref sig .tc .vmem S1x256 .f32) (harg4 : arg4.IsWhole) (arg5 : Memref sig .tc .vmem S256x4096 .bf16) (harg5 : arg5.IsWhole)
    (arg6 : Memref sig .tc .vmem S1x256 .f32) (harg6 : arg6.IsWhole) (arg7 : Memref sig .tc .vmem S4096x256 .bf16) (harg7 : arg7.IsWhole)
    (arg8 : Memref sig .tc .vmem S1x4096 .f32) (harg8 : arg8.IsWhole) (arg9 : Memref sig .tc .vmem S512x4096 .f32) (harg9 : arg9.IsWhole)
    (h1 : ¬k0_cond1 i = 1#1) (h2 : k0_cond2 i = 1#1) (h3 : k0_cond3 i = 1#1)
    (x0 : Vec F S512x4096 .bf16) (x1 : Vec F S256x4096 .bf16) (x2 : Vec F S1x256 .f32) (x3 : Vec F S256x4096 .bf16)
    (x4 : Vec F S1x256 .f32) (x5 : Vec F S4096x256 .bf16) (x6 : Vec F S1x4096 .f32) (xo : Vec F S512x4096 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare xo
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare (k0_pay1 (k0_pay3 x0 x1 x3 x2 x4 x5 xo) x6)) -∗ K ⟨⟩))
      ⊢ wp frame (wpE (defs₀ (F := F)) Variants.none c none) E (cc0__mlp_kernel i arg2 harg2 arg3 harg3 arg4 harg4 arg5 harg5 arg6 harg6 arg7 harg7 arg8 harg8 arg9 harg9) K := by
  simp only [cc0__mlp_kernel_eq_skeleton]; unfold cc0__mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  obtain rfl := harg9.eq_unread hf7
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  swap; · iexact H7
  ipureintro
  sl_unfold_run_names
  rw [View.read_writes_eq_canon _ _ _ (fun y => ⟨_, List.mem_cons_self, View.mem_set_unit_zero hz inb_S512x4096_S512x4096_0_0 y⟩), View.canon_cons_unit_zero hz]
  simp only [View.readAt_eq_ld, Memref.IsWhole.read_unread, View.ld_unit_zero (S := S512x4096) hz, View.ld_unit_zero (S := S256x4096) hz, View.ld_unit_zero (S := S1x256) hz, View.ld_unit_zero (S := S4096x256) hz, View.ld_unit_zero (S := S1x4096) hz]
  rw [View.readCov_unit_zero _ hz]

end Cert.Kernel.Body

end
-- ==== Proof.BodyKernel.lean ====
/-
  The frame of the feed-forward kernel: its body at every grid point, and the run of the whole program.

  The grid is 8 row blocks by 43 inner tiles. At a point the body forms, from the point's input blocks, the partial
  product of the tile's hidden values with the tile's output weights; the output block's staging buffer is an
  accumulator carried along the 43 tiles of a row block: the first tile stores the partial product, every later tile
  adds its own to what the buffer holds, and the last tile also adds the output bias, after which the block is written
  back. What the buffer holds after each point is therefore defined by recursion on the point (`accAt`), and the body
  is run once for each of the three kinds of point (first tile, middle tile, last tile).
-/
import proofs.«105601_j27573690040806_2_alg».proof.Proof.Gen.Kernel.Frame
import proofs.«105601_j27573690040806_2_alg».proof.Proof.RunsKernel
import proofs.«105601_j27573690040806_2_alg».proof.Proof.Gen.Kernel.Skeleton
import Idealize.ShloMosaic.Lib.Pipeline.Frame
import Idealize.ShloMosaic.Lib.Pipeline.FrameSuffix
import Idealize.ShloMosaic.Lib.Pipeline.Value
import Idealize.ShloMosaic.Lib.Exec.Geometry

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which kind of point: the body's three conditions over the grid -/

/-- "first tile of a row block" holds exactly at the points ≡ 0 (mod 43), -/
theorem hcond1 : ∀ t : Fin cfg0.N, k0_cond1 (grid0.coords t) = 1#1 ↔ t.val % 43 = 0 :=
  (by decide +kernel : ∀ t : Fin grid0.N, k0_cond1 (grid0.coords t) = 1#1 ↔ t.val % 43 = 0)
/-- "a later tile" at all the others, -/
theorem hcond2 : ∀ t : Fin cfg0.N, k0_cond2 (grid0.coords t) = 1#1 ↔ ¬t.val % 43 = 0 :=
  (by decide +kernel : ∀ t : Fin grid0.N, k0_cond2 (grid0.coords t) = 1#1 ↔ ¬t.val % 43 = 0)
/-- "last tile" at the points ≡ 42 (mod 43). -/
theorem hcond3 : ∀ t : Fin cfg0.N, k0_cond3 (grid0.coords t) = 1#1 ↔ t.val % 43 = 42 :=
  (by decide +kernel : ∀ t : Fin grid0.N, k0_cond3 (grid0.coords t) = 1#1 ↔ t.val % 43 = 42)

/-- At every point one of the first two holds, so the output block is stored into at every point. -/
theorem live7 : ∀ i : grid0.Coords, cfg0.idle 7 i = false :=
  (by decide +kernel : ∀ i : grid0.Coords, idle0 7 i = false)

/-! ## What the output block's buffer holds after each point -/

/-- The accumulator after the body at position `n`: the partial product at the first tile of a row block; at a later
    tile what the point before left plus this tile's partial product, and at the last tile the output bias on top. -/
def accAt (c : Dev nD) : (n : ℕ) → n < cfg0.N → Vec F S512x4096 .f32
  | 0, hn => k0_pay2 (iblk m c 0 ⟨0, hn⟩) (iblk m c 1 ⟨0, hn⟩) (iblk m c 3 ⟨0, hn⟩) (iblk m c 2 ⟨0, hn⟩) (iblk m c 4 ⟨0, hn⟩) (iblk m c 5 ⟨0, hn⟩)
  | n + 1, hn =>
    if (n + 1) % 43 = 0 then k0_pay2 (iblk m c 0 ⟨n + 1, hn⟩) (iblk m c 1 ⟨n + 1, hn⟩) (iblk m c 3 ⟨n + 1, hn⟩) (iblk m c 2 ⟨n + 1, hn⟩) (iblk m c 4 ⟨n + 1, hn⟩) (iblk m c 5 ⟨n + 1, hn⟩)
    else if (n + 1) % 43 = 42 then
      k0_pay1 (k0_pay3 (iblk m c 0 ⟨n + 1, hn⟩) (iblk m c 1 ⟨n + 1, hn⟩) (iblk m c 3 ⟨n + 1, hn⟩) (iblk m c 2 ⟨n + 1, hn⟩) (iblk m c 4 ⟨n + 1, hn⟩) (iblk m c 5 ⟨n + 1, hn⟩) (accAt c n (Nat.lt_of_succ_lt hn))) (iblk m c 6 ⟨n + 1, hn⟩)
    else k0_pay3 (iblk m c 0 ⟨n + 1, hn⟩) (iblk m c 1 ⟨n + 1, hn⟩) (iblk m c 3 ⟨n + 1, hn⟩) (iblk m c 2 ⟨n + 1, hn⟩) (iblk m c 4 ⟨n + 1, hn⟩) (iblk m c 5 ⟨n + 1, hn⟩) (accAt c n (Nat.lt_of_succ_lt hn))

theorem accAt_first (c : Dev nD) (t : Fin cfg0.N) (h0 : t.val % 43 = 0) :
    accAt m c t.val t.isLt = k0_pay2 (iblk m c 0 t) (iblk m c 1 t) (iblk m c 3 t) (iblk m c 2 t) (iblk m c 4 t) (iblk m c 5 t) := by
  obtain ⟨n, hn⟩ := t
  cases n with
  | zero => rfl
  | succ n => exact (if_pos h0).trans rfl

theorem accAt_mid (c : Dev nD) (t : Fin cfg0.N) (h0 : ¬t.val % 43 = 0) (h42 : ¬t.val % 43 = 42) :
    accAt m c t.val t.isLt
      = k0_pay3 (iblk m c 0 t) (iblk m c 1 t) (iblk m c 3 t) (iblk m c 2 t) (iblk m c 4 t) (iblk m c 5 t) (accAt m c (t.val - 1) (Nat.lt_of_le_of_lt (Nat.sub_le _ _) t.isLt)) := by
  obtain ⟨n, hn⟩ := t
  cases n with
  | zero => exact absurd (Nat.zero_mod _) h0
  | succ n => exact ((if_neg h0).trans (if_neg h42)).trans rfl

theorem accAt_last (c : Dev nD) (t : Fin cfg0.N) (h42 : t.val % 43 = 42) :
    accAt m c t.val t.isLt
      = k0_pay1 (k0_pay3 (iblk m c 0 t) (iblk m c 1 t) (iblk m c 3 t) (iblk m c 2 t) (iblk m c 4 t) (iblk m c 5 t) (accAt m c (t.val - 1) (Nat.lt_of_le_of_lt (Nat.sub_le _ _) t.isLt))) (iblk m c 6 t) := by
  obtain ⟨n, hn⟩ := t
  cases n with
  | zero => exact absurd (show (0 : ℕ) % 43 = 42 from h42) (by decide)
  | succ n => exact ((if_neg (by dsimp only at h42 ⊢; omega)).trans (if_pos h42)).trans rfl

/-! ## The pipeline's proof data -/

/-- The arrays as the region finds them; after the body each input's buffer at its block and the output's at the
    accumulator; the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = accAt m c t.val t.isLt := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- At a later tile of a row block the output's buffer holds what the body left at the point before: the block is
    written back only after a last tile, and the point before a later tile is no last tile. -/
theorem before0_7_later (c : Dev nD) (t : Fin cfg0.N) (h0 : ¬t.val % 43 = 0) (d) :
    (dats m 0 c).before 7 t d = accAt m c (t.val - 1) (Nat.lt_of_le_of_lt (Nat.sub_le _ _) t.isLt) := by
  have hN : t.val < 344 := lt_of_lt_of_eq t.isLt (show cfg0.N = 344 from N_0)
  rw [Dat.before_out_kept _ 7 rfl t (by omega) (Bool.eq_false_iff.mpr fun h => by have := (flush0_7 _).mp h; dsimp only at this; omega)
    live7 (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1600000 in
/-- The body at any point: the inputs' memrefs hold their blocks; the point's position in its row block says which
    run applies, and at a later tile the output's buffer holds the accumulator of the point before. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  by_cases h0 : t.val % 43 = 0
  · rw [accAt_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_A c Set.univ (grid0.coords t) _ _ _ _ _ _ _ _ _ _ _ _ _ _ _ _
      ((hcond1 t).mpr h0) (fun h => (hcond2 t).mp h h0) (fun h => by have := (hcond3 t).mp h; omega)
      (iblk m c 0 t) (iblk m c 1 t) (iblk m c 2 t) (iblk m c 3 t) (iblk m c 4 t) (iblk m c 5 t) (iblk m c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · simp only [before0_7_later m c t h0]
    by_cases h42 : t.val % 43 = 42
    · rw [accAt_last m c t h42]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_C c Set.univ (grid0.coords t) _ _ _ _ _ _ _ _ _ _ _ _ _ _ _ _
        (fun h => h0 ((hcond1 t).mp h)) ((hcond2 t).mpr h0) ((hcond3 t).mpr h42)
        (iblk m c 0 t) (iblk m c 1 t) (iblk m c 2 t) (iblk m c 3 t) (iblk m c 4 t) (iblk m c 5 t) (iblk m c 6 t)
        (accAt m c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [accAt_mid m c t h0 h42]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_B c Set.univ (grid0.coords t) _ _ _ _ _ _ _ _ _ _ _ _ _ _ _ _
        (fun h => h0 ((hcond1 t).mp h)) ((hcond2 t).mpr h0) (fun h => h42 ((hcond3 t).mp h))
        (iblk m c 0 t) (iblk m c 1 t) (iblk m c 2 t) (iblk m c 3 t) (iblk m c 4 t) (iblk m c 5 t) (iblk m c 6 t)
        (accAt m c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

end Cert.Kernel.Body

end
-- ==== Proof.FrameKernel.lean ====
/-
  The whole program's run: the body obligation at every grid point from the three runs of the body, the launch of the
  pipeline around it with the host lines before and after the region, and the frame: the program terminates, nothing
  faults, and the argument arrays end as they were.
-/
import proofs.«105601_j27573690040806_2_alg».proof.Proof.Gen.Kernel.Frame
import proofs.«105601_j27573690040806_2_alg».proof.Proof.BodyKernel
import proofs.«105601_j27573690040806_2_alg».proof.Proof.Gen.Kernel.Skeleton
import Idealize.ShloMosaic.Lib.Pipeline.Frame
import Idealize.ShloMosaic.Lib.Pipeline.FrameSuffix
import Idealize.ShloMosaic.Lib.Pipeline.Value
import Idealize.ShloMosaic.Lib.Exec.Geometry

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The library's body obligation, at every point. -/
theorem body_obligation (c : Dev nD) : BodyObligation (dats (F := F) m 0 c) (defs₀ (F := F)) Variants.none () Set.univ := fun t => by
  have h7 : idle0 7 (grid0.coords t) = false := live7 _
  rw [bigSep_W0, bigSep_W0]
  simp only [h7]
  exact sound_body m c t

/-! ## The run and the frame -/

set_option maxHeartbeats 4000000 in
set_option backward.isDefEq.respectTransparency.types false in
/-- From any memory with zero counters every weakly fair execution of the program terminates, and every final state
    has every array of the pipeline at what the write-backs of the proof data leave and every other unscoped buffer
    as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Body

end
-- ==== Proof.RunsKernelIdeal.lean ====
/-
  The feed-forward kernel's body run on any staging memrefs, once for each of the three kinds of grid point: the
  first tile of a row block stores the tile's partial product into the output block's buffer; a middle tile adds its
  partial product to what the buffer holds; the last tile does the same and then adds the output bias to every row.
-/
import proofs.«105601_j27573690040806_2_alg».proof.Proof.Gen.KernelIdeal.Frame
import proofs.«105601_j27573690040806_2_alg».proof.Proof.Gen.KernelIdeal.Skeleton
import Idealize.ShloMosaic.Lib.Pipeline.Frame
import Idealize.ShloMosaic.Lib.Pipeline.FrameSuffix
import Idealize.ShloMosaic.Lib.Pipeline.Value
import Idealize.ShloMosaic.Lib.Exec.Geometry

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-! ## The body on any staging memrefs, one run per kind of point -/

set_option maxHeartbeats 2000000 in
/-- First tile: the output buffer, whatever it held, ends at the partial product. -/
theorem sound_A (c : Dev nD) (E : Set ℕ) (i : grid0.Coords)
    (arg2 : Memref sig .tc .vmem S512x4096 .bf16) (harg2 : arg2.IsWhole) (arg3 : Memref sig .tc .vmem S256x4096 .bf16) (harg3 : arg3.IsWhole)
    (arg4 : Memref sig .tc .vmem S1x256 .f32) (harg4 : arg4.IsWhole) (arg5 : Memref sig .tc .vmem S256x4096 .bf16) (harg5 : arg5.IsWhole)
    (arg6 : Memref sig .tc .vmem S1x256 .f32) (harg6 : arg6.IsWhole) (arg7 : Memref sig .tc .vmem S4096x256 .bf16) (harg7 : arg7.IsWhole)
    (arg8 : Memref sig .tc .vmem S1x4096 .f32) (harg8 : arg8.IsWhole) (arg9 : Memref sig .tc .vmem S512x4096 .f32) (harg9 : arg9.IsWhole)
    (h1 : k0_cond1 i = 1#1) (h2 : ¬k0_cond2 i = 1#1) (h3 : ¬k0_cond3 i = 1#1)
    (x0 : Vec F S512x4096 .bf16) (x1 : Vec F S256x4096 .bf16) (x2 : Vec F S1x256 .f32) (x3 : Vec F S256x4096 .bf16)
    (x4 : Vec F S1x256 .f32) (x5 : Vec F S4096x256 .bf16) (x6 : Vec F S1x4096 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare (k0_pay2 x0 x1 x3 x2 x4 x5)) -∗ K ⟨⟩))
      ⊢ wp frame (wpE (defs₀ (F := F)) Variants.none c none) E (cc0__mlp_kernel i arg2 harg2 arg3 harg3 arg4 harg4 arg5 harg5 arg6 harg6 arg7 harg7 arg8 harg8 arg9 harg9) K := by
  simp only [cc0__mlp_kernel_eq_skeleton]; unfold cc0__mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  swap; · iexact H7
  ipureintro
  rw [View.read_writes_eq_canon _ _ _ (fun y => ⟨_, List.mem_singleton_self _, View.mem_set_unit_zero hz inb_S512x4096_S512x4096_0_0 y⟩), View.canon_unit_zero hz]
  simp only [View.readAt_eq_ld, Memref.IsWhole.read_unread, View.ld_unit_zero (S := S512x4096) hz, View.ld_unit_zero (S := S256x4096) hz, View.ld_unit_zero (S := S1x256) hz, View.ld_unit_zero (S := S4096x256) hz, View.ld_unit_zero (S := S1x4096) hz]

set_option maxHeartbeats 2000000 in
/-- Middle tile: the output buffer ends at what it held plus the partial product. -/
theorem sound_B (c : Dev nD) (E : Set ℕ) (i : grid0.Coords)
    (arg2 : Memref sig .tc .vmem S512x4096 .bf16) (harg2 : arg2.IsWhole) (arg3 : Memref sig .tc .vmem S256x4096 .bf16) (harg3 : arg3.IsWhole)
    (arg4 : Memref sig .tc .vmem S1x256 .f32) (harg4 : arg4.IsWhole) (arg5 : Memref sig .tc .vmem S256x4096 .bf16) (harg5 : arg5.IsWhole)
    (arg6 : Memref sig .tc .vmem S1x256 .f32) (harg6 : arg6.IsWhole) (arg7 : Memref sig .tc .vmem S4096x256 .bf16) (harg7 : arg7.IsWhole)
    (arg8 : Memref sig .tc .vmem S1x4096 .f32) (harg8 : arg8.IsWhole) (arg9 : Memref sig .tc .vmem S512x4096 .f32) (harg9 : arg9.IsWhole)
    (h1 : ¬k0_cond1 i = 1#1) (h2 : k0_cond2 i = 1#1) (h3 : ¬k0_cond3 i = 1#1)
    (x0 : Vec F S512x4096 .bf16) (x1 : Vec F S256x4096 .bf16) (x2 : Vec F S1x256 .f32) (x3 : Vec F S256x4096 .bf16)
    (x4 : Vec F S1x256 .f32) (x5 : Vec F S4096x256 .bf16) (x6 : Vec F S1x4096 .f32) (xo : Vec F S512x4096 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare xo
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare (k0_pay3 x0 x1 x3 x2 x4 x5 xo)) -∗ K ⟨⟩))
      ⊢ wp frame (wpE (defs₀ (F := F)) Variants.none c none) E (cc0__mlp_kernel i arg2 harg2 arg3 harg3 arg4 harg4 arg5 harg5 arg6 harg6 arg7 harg7 arg8 harg8 arg9 harg9) K := by
  simp only [cc0__mlp_kernel_eq_skeleton]; unfold cc0__mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  obtain rfl := harg9.eq_unread hf7
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  swap; · iexact H7
  ipureintro
  rw [View.read_writes_eq_canon _ _ _ (fun y => ⟨_, List.mem_singleton_self _, View.mem_set_unit_zero hz inb_S512x4096_S512x4096_0_0 y⟩), View.canon_unit_zero hz]
  simp only [View.readAt_eq_ld, Memref.IsWhole.read_unread, View.ld_unit_zero (S := S512x4096) hz, View.ld_unit_zero (S := S256x4096) hz, View.ld_unit_zero (S := S1x256) hz, View.ld_unit_zero (S := S4096x256) hz, View.ld_unit_zero (S := S1x4096) hz]

set_option maxHeartbeats 2000000 in
/-- Last tile: the same, and then the output bias added to every row. -/
theorem sound_C (c : Dev nD) (E : Set ℕ) (i : grid0.Coords)
    (arg2 : Memref sig .tc .vmem S512x4096 .bf16) (harg2 : arg2.IsWhole) (arg3 : Memref sig .tc .vmem S256x4096 .bf16) (harg3 : arg3.IsWhole)
    (arg4 : Memref sig .tc .vmem S1x256 .f32) (harg4 : arg4.IsWhole) (arg5 : Memref sig .tc .vmem S256x4096 .bf16) (harg5 : arg5.IsWhole)
    (arg6 : Memref sig .tc .vmem S1x256 .f32) (harg6 : arg6.IsWhole) (arg7 : Memref sig .tc .vmem S4096x256 .bf16) (harg7 : arg7.IsWhole)
    (arg8 : Memref sig .tc .vmem S1x4096 .f32) (harg8 : arg8.IsWhole) (arg9 : Memref sig .tc .vmem S512x4096 .f32) (harg9 : arg9.IsWhole)
    (h1 : ¬k0_cond1 i = 1#1) (h2 : k0_cond2 i = 1#1) (h3 : k0_cond3 i = 1#1)
    (x0 : Vec F S512x4096 .bf16) (x1 : Vec F S256x4096 .bf16) (x2 : Vec F S1x256 .f32) (x3 : Vec F S256x4096 .bf16)
    (x4 : Vec F S1x256 .f32) (x5 : Vec F S4096x256 .bf16) (x6 : Vec F S1x4096 .f32) (xo : Vec F S512x4096 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare xo
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare (k0_pay1 (k0_pay3 x0 x1 x3 x2 x4 x5 xo) x6)) -∗ K ⟨⟩))
      ⊢ wp frame (wpE (defs₀ (F := F)) Variants.none c none) E (cc0__mlp_kernel i arg2 harg2 arg3 harg3 arg4 harg4 arg5 harg5 arg6 harg6 arg7 harg7 arg8 harg8 arg9 harg9) K := by
  simp only [cc0__mlp_kernel_eq_skeleton]; unfold cc0__mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  obtain rfl := harg9.eq_unread hf7
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  swap; · iexact H7
  ipureintro
  sl_unfold_run_names
  rw [View.read_writes_eq_canon _ _ _ (fun y => ⟨_, List.mem_cons_self, View.mem_set_unit_zero hz inb_S512x4096_S512x4096_0_0 y⟩), View.canon_cons_unit_zero hz]
  simp only [View.readAt_eq_ld, Memref.IsWhole.read_unread, View.ld_unit_zero (S := S512x4096) hz, View.ld_unit_zero (S := S256x4096) hz, View.ld_unit_zero (S := S1x256) hz, View.ld_unit_zero (S := S4096x256) hz, View.ld_unit_zero (S := S1x4096) hz]
  rw [View.readCov_unit_zero _ hz]

end Cert.KernelIdeal.Body

end
-- ==== Proof.BodyKernelIdeal.lean ====
/-
  The frame of the feed-forward kernel: its body at every grid point, and the run of the whole program.

  The grid is 8 row blocks by 43 inner tiles. At a point the body forms, from the point's input blocks, the partial
  product of the tile's hidden values with the tile's output weights; the output block's staging buffer is an
  accumulator carried along the 43 tiles of a row block: the first tile stores the partial product, every later tile
  adds its own to what the buffer holds, and the last tile also adds the output bias, after which the block is written
  back. What the buffer holds after each point is therefore defined by recursion on the point (`accAt`), and the body
  is run once for each of the three kinds of point (first tile, middle tile, last tile).
-/
import proofs.«105601_j27573690040806_2_alg».proof.Proof.Gen.KernelIdeal.Frame
import proofs.«105601_j27573690040806_2_alg».proof.Proof.RunsKernelIdeal
import proofs.«105601_j27573690040806_2_alg».proof.Proof.Gen.KernelIdeal.Skeleton
import Idealize.ShloMosaic.Lib.Pipeline.Frame
import Idealize.ShloMosaic.Lib.Pipeline.FrameSuffix
import Idealize.ShloMosaic.Lib.Pipeline.Value
import Idealize.ShloMosaic.Lib.Exec.Geometry

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which kind of point: the body's three conditions over the grid -/

/-- "first tile of a row block" holds exactly at the points ≡ 0 (mod 43), -/
theorem hcond1 : ∀ t : Fin cfg0.N, k0_cond1 (grid0.coords t) = 1#1 ↔ t.val % 43 = 0 :=
  (by decide +kernel : ∀ t : Fin grid0.N, k0_cond1 (grid0.coords t) = 1#1 ↔ t.val % 43 = 0)
/-- "a later tile" at all the others, -/
theorem hcond2 : ∀ t : Fin cfg0.N, k0_cond2 (grid0.coords t) = 1#1 ↔ ¬t.val % 43 = 0 :=
  (by decide +kernel : ∀ t : Fin grid0.N, k0_cond2 (grid0.coords t) = 1#1 ↔ ¬t.val % 43 = 0)
/-- "last tile" at the points ≡ 42 (mod 43). -/
theorem hcond3 : ∀ t : Fin cfg0.N, k0_cond3 (grid0.coords t) = 1#1 ↔ t.val % 43 = 42 :=
  (by decide +kernel : ∀ t : Fin grid0.N, k0_cond3 (grid0.coords t) = 1#1 ↔ t.val % 43 = 42)

/-- At every point one of the first two holds, so the output block is stored into at every point. -/
theorem live7 : ∀ i : grid0.Coords, cfg0.idle 7 i = false :=
  (by decide +kernel : ∀ i : grid0.Coords, idle0 7 i = false)

/-! ## What the output block's buffer holds after each point -/

/-- The accumulator after the body at position `n`: the partial product at the first tile of a row block; at a later
    tile what the point before left plus this tile's partial product, and at the last tile the output bias on top. -/
def accAt (c : Dev nD) : (n : ℕ) → n < cfg0.N → Vec F S512x4096 .f32
  | 0, hn => k0_pay2 (iblk m c 0 ⟨0, hn⟩) (iblk m c 1 ⟨0, hn⟩) (iblk m c 3 ⟨0, hn⟩) (iblk m c 2 ⟨0, hn⟩) (iblk m c 4 ⟨0, hn⟩) (iblk m c 5 ⟨0, hn⟩)
  | n + 1, hn =>
    if (n + 1) % 43 = 0 then k0_pay2 (iblk m c 0 ⟨n + 1, hn⟩) (iblk m c 1 ⟨n + 1, hn⟩) (iblk m c 3 ⟨n + 1, hn⟩) (iblk m c 2 ⟨n + 1, hn⟩) (iblk m c 4 ⟨n + 1, hn⟩) (iblk m c 5 ⟨n + 1, hn⟩)
    else if (n + 1) % 43 = 42 then
      k0_pay1 (k0_pay3 (iblk m c 0 ⟨n + 1, hn⟩) (iblk m c 1 ⟨n + 1, hn⟩) (iblk m c 3 ⟨n + 1, hn⟩) (iblk m c 2 ⟨n + 1, hn⟩) (iblk m c 4 ⟨n + 1, hn⟩) (iblk m c 5 ⟨n + 1, hn⟩) (accAt c n (Nat.lt_of_succ_lt hn))) (iblk m c 6 ⟨n + 1, hn⟩)
    else k0_pay3 (iblk m c 0 ⟨n + 1, hn⟩) (iblk m c 1 ⟨n + 1, hn⟩) (iblk m c 3 ⟨n + 1, hn⟩) (iblk m c 2 ⟨n + 1, hn⟩) (iblk m c 4 ⟨n + 1, hn⟩) (iblk m c 5 ⟨n + 1, hn⟩) (accAt c n (Nat.lt_of_succ_lt hn))

theorem accAt_first (c : Dev nD) (t : Fin cfg0.N) (h0 : t.val % 43 = 0) :
    accAt m c t.val t.isLt = k0_pay2 (iblk m c 0 t) (iblk m c 1 t) (iblk m c 3 t) (iblk m c 2 t) (iblk m c 4 t) (iblk m c 5 t) := by
  obtain ⟨n, hn⟩ := t
  cases n with
  | zero => rfl
  | succ n => exact (if_pos h0).trans rfl

theorem accAt_mid (c : Dev nD) (t : Fin cfg0.N) (h0 : ¬t.val % 43 = 0) (h42 : ¬t.val % 43 = 42) :
    accAt m c t.val t.isLt
      = k0_pay3 (iblk m c 0 t) (iblk m c 1 t) (iblk m c 3 t) (iblk m c 2 t) (iblk m c 4 t) (iblk m c 5 t) (accAt m c (t.val - 1) (Nat.lt_of_le_of_lt (Nat.sub_le _ _) t.isLt)) := by
  obtain ⟨n, hn⟩ := t
  cases n with
  | zero => exact absurd (Nat.zero_mod _) h0
  | succ n => exact ((if_neg h0).trans (if_neg h42)).trans rfl

theorem accAt_last (c : Dev nD) (t : Fin cfg0.N) (h42 : t.val % 43 = 42) :
    accAt m c t.val t.isLt
      = k0_pay1 (k0_pay3 (iblk m c 0 t) (iblk m c 1 t) (iblk m c 3 t) (iblk m c 2 t) (iblk m c 4 t) (iblk m c 5 t) (accAt m c (t.val - 1) (Nat.lt_of_le_of_lt (Nat.sub_le _ _) t.isLt))) (iblk m c 6 t) := by
  obtain ⟨n, hn⟩ := t
  cases n with
  | zero => exact absurd (show (0 : ℕ) % 43 = 42 from h42) (by decide)
  | succ n => exact ((if_neg (by dsimp only at h42 ⊢; omega)).trans (if_pos h42)).trans rfl

/-! ## The pipeline's proof data -/

/-- The arrays as the region finds them; after the body each input's buffer at its block and the output's at the
    accumulator; the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = accAt m c t.val t.isLt := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- At a later tile of a row block the output's buffer holds what the body left at the point before: the block is
    written back only after a last tile, and the point before a later tile is no last tile. -/
theorem before0_7_later (c : Dev nD) (t : Fin cfg0.N) (h0 : ¬t.val % 43 = 0) (d) :
    (dats m 0 c).before 7 t d = accAt m c (t.val - 1) (Nat.lt_of_le_of_lt (Nat.sub_le _ _) t.isLt) := by
  have hN : t.val < 344 := lt_of_lt_of_eq t.isLt (show cfg0.N = 344 from N_0)
  rw [Dat.before_out_kept _ 7 rfl t (by omega) (Bool.eq_false_iff.mpr fun h => by have := (flush0_7 _).mp h; dsimp only at this; omega)
    live7 (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1600000 in
/-- The body at any point: the inputs' memrefs hold their blocks; the point's position in its row block says which
    run applies, and at a later tile the output's buffer holds the accumulator of the point before. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  by_cases h0 : t.val % 43 = 0
  · rw [accAt_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_A c Set.univ (grid0.coords t) _ _ _ _ _ _ _ _ _ _ _ _ _ _ _ _
      ((hcond1 t).mpr h0) (fun h => (hcond2 t).mp h h0) (fun h => by have := (hcond3 t).mp h; omega)
      (iblk m c 0 t) (iblk m c 1 t) (iblk m c 2 t) (iblk m c 3 t) (iblk m c 4 t) (iblk m c 5 t) (iblk m c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · simp only [before0_7_later m c t h0]
    by_cases h42 : t.val % 43 = 42
    · rw [accAt_last m c t h42]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_C c Set.univ (grid0.coords t) _ _ _ _ _ _ _ _ _ _ _ _ _ _ _ _
        (fun h => h0 ((hcond1 t).mp h)) ((hcond2 t).mpr h0) ((hcond3 t).mpr h42)
        (iblk m c 0 t) (iblk m c 1 t) (iblk m c 2 t) (iblk m c 3 t) (iblk m c 4 t) (iblk m c 5 t) (iblk m c 6 t)
        (accAt m c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [accAt_mid m c t h0 h42]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_B c Set.univ (grid0.coords t) _ _ _ _ _ _ _ _ _ _ _ _ _ _ _ _
        (fun h => h0 ((hcond1 t).mp h)) ((hcond2 t).mpr h0) (fun h => h42 ((hcond3 t).mp h))
        (iblk m c 0 t) (iblk m c 1 t) (iblk m c 2 t) (iblk m c 3 t) (iblk m c 4 t) (iblk m c 5 t) (iblk m c 6 t)
        (accAt m c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

end Cert.KernelIdeal.Body

end
-- ==== Proof.FrameKernelIdeal.lean ====
/-
  The whole program's run: the body obligation at every grid point from the three runs of the body, the launch of the
  pipeline around it with the host lines before and after the region, and the frame: the program terminates, nothing
  faults, and the argument arrays end as they were.
-/
import proofs.«105601_j27573690040806_2_alg».proof.Proof.Gen.KernelIdeal.Frame
import proofs.«105601_j27573690040806_2_alg».proof.Proof.BodyKernelIdeal
import proofs.«105601_j27573690040806_2_alg».proof.Proof.Gen.KernelIdeal.Skeleton
import Idealize.ShloMosaic.Lib.Pipeline.Frame
import Idealize.ShloMosaic.Lib.Pipeline.FrameSuffix
import Idealize.ShloMosaic.Lib.Pipeline.Value
import Idealize.ShloMosaic.Lib.Exec.Geometry

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The library's body obligation, at every point. -/
theorem body_obligation (c : Dev nD) : BodyObligation (dats (F := F) m 0 c) (defs₀ (F := F)) Variants.none () Set.univ := fun t => by
  have h7 : idle0 7 (grid0.coords t) = false := live7 _
  rw [bigSep_W0, bigSep_W0]
  simp only [h7]
  exact sound_body m c t

/-! ## The run and the frame -/

set_option maxHeartbeats 4000000 in
set_option backward.isDefEq.respectTransparency.types false in
/-- From any memory with zero counters every weakly fair execution of the program terminates, and every final state
    has every array of the pipeline at what the write-backs of the proof data leave and every other unscoped buffer
    as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Body

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.Blocks.lean ====
/-
  The kernel's input blocks, read at an entry, are entries of the argument arrays.

  The arrays the kernel's windows stage are written by the host lines before the region: the rows `[2, 2048, 4096]`
  flattened to `[4096, 4096]` (row `r·2048 + s`), the three weight matrices unchanged but for a change of float
  format (the identity on the extended reals), and each bias vector stood up as a one-row matrix. Point `t` of the
  8 × 43 grid is row block `t / 43` and inner tile `t % 43`: its row block holds rows `(t / 43)·512 + p`, its weight
  blocks hold the inner units `(t % 43)·256 + j`.
-/
import proofs.«105601_j27573690040806_2_alg».proof.Proof.Gen.KernelIdeal.Frame
import proofs.«105601_j27573690040806_2_alg».proof.Proof.LibLayout
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.Mlp.Blocks

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-! ## The staged arrays, as the host lines before the region leave them -/

theorem V_rows (c : Dev nD) : (V m c main_call0_v1 : S4096x4096.Idx → EReal)
    = truncf (F := Ideal) .bf16 (shapeCast S4096x4096 (m ((c : Thread nD τ).loc main_arg0)) shapeCasts_S2x2048x4096_S4096x4096) bitsLt_bf16_f32 := by
  show StableHlo.after hostOps0 (fun b => m (c, b)) (Proc.devRef .tc main_call0_v1) = _
  after_results
  rfl
theorem V_gateW (c : Dev nD) : (V m c main_call0_v2 : S11008x4096.Idx → EReal)
    = truncf (F := Ideal) .bf16 (m ((c : Thread nD τ).loc main_arg1)) bitsLt_bf16_f32 := by
  show StableHlo.after hostOps0 (fun b => m (c, b)) (Proc.devRef .tc main_call0_v2) = _
  after_results
  rfl
theorem V_upW (c : Dev nD) : (V m c main_call0_v3 : S11008x4096.Idx → EReal)
    = truncf (F := Ideal) .bf16 (m ((c : Thread nD τ).loc main_arg3)) bitsLt_bf16_f32 := by
  show StableHlo.after hostOps0 (fun b => m (c, b)) (Proc.devRef .tc main_call0_v3) = _
  after_results
  rfl
theorem V_downW (c : Dev nD) : (V m c main_call0_v4 : S4096x11008.Idx → EReal)
    = truncf (F := Ideal) .bf16 (m ((c : Thread nD τ).loc main_arg5)) bitsLt_bf16_f32 := by
  show StableHlo.after hostOps0 (fun b => m (c, b)) (Proc.devRef .tc main_call0_v4) = _
  after_results
  rfl
theorem V_gateB (c : Dev nD) : (V m c main_call0_v5 : S1x11008.Idx → EReal)
    = shapeCast S1x11008 (m ((c : Thread nD τ).loc main_arg2)) shapeCasts_S11008_S1x11008 := by
  show StableHlo.after hostOps0 (fun b => m (c, b)) (Proc.devRef .tc main_call0_v5) = _
  after_results
  rfl
theorem V_upB (c : Dev nD) : (V m c main_call0_v6 : S1x11008.Idx → EReal)
    = shapeCast S1x11008 (m ((c : Thread nD τ).loc main_arg4)) shapeCasts_S11008_S1x11008 := by
  show StableHlo.after hostOps0 (fun b => m (c, b)) (Proc.devRef .tc main_call0_v6) = _
  after_results
  rfl
theorem V_downB (c : Dev nD) : (V m c main_call0_v7 : S1x4096.Idx → EReal)
    = shapeCast S1x4096 (m ((c : Thread nD τ).loc main_arg6)) shapeCasts_S4096_S1x4096 := by
  show StableHlo.after hostOps0 (fun b => m (c, b)) (Proc.devRef .tc main_call0_v7) = _
  after_results
  rfl

/-! ## The index maps over the grid -/

/-- Point `t` is row block `t / 43` and inner tile `t % 43`; each window's block index is one of the two, or zero. -/
theorem idx_facts : ∀ t : Fin cfg0.N,
    win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = 0 ∧ win0_2.index t (1 : Fin 2) = t.val % 43
    ∧ win0_3.index t (0 : Fin 2) = t.val % 43 ∧ win0_3.index t (1 : Fin 2) = 0
    ∧ win0_4.index t (0 : Fin 2) = 0 ∧ win0_4.index t (1 : Fin 2) = t.val % 43
    ∧ win0_5.index t (0 : Fin 2) = 0 ∧ win0_5.index t (1 : Fin 2) = t.val % 43
    ∧ win0_6.index t (0 : Fin 2) = 0 ∧ win0_6.index t (1 : Fin 2) = 0
    ∧ win0_7.index t (0 : Fin 2) = t.val / 43 ∧ win0_7.index t (1 : Fin 2) = 0 :=
  (by decide +kernel : ∀ t : Fin grid0.N, _)

/-! ## The blocks at an entry -/

/-- Row `p` of point `t`'s row block is row `s` of batch `r`, where `r·2048 + s = (t / 43)·512 + p`. -/
theorem rows_apply (c : Dev nD) (t : Fin cfg0.N) (p : Fin 512) (d : Fin 4096) (r : Fin 2) (s : Fin 2048)
    (h : r.val * 2048 + s.val = t.val / 43 * 512 + p.val) :
    iblk m c 0 t (ix2 p d) = m ((c : Thread nD τ).loc main_arg0) (ix3 r s d) := by
  obtain ⟨e0, e1, -⟩ := idx_facts t
  have hN : t.val < 344 := lt_of_lt_of_eq t.isLt (show cfg0.N = 344 from N_0)
  have hR : t.val / 43 * 512 + p.val < 4096 := by have := p.isLt; omega
  show V m c main_call0_v1 (((cfg0.win 0).blk t).view.emb (ix2 p d)) = _
  have he : ((cfg0.win 0).blk t).view.emb (ix2 p d) = (ix2 (⟨t.val / 43 * 512 + p.val, hR⟩ : Fin 4096) d : S4096x4096.Idx) := by
    funext a; apply Fin.ext
    match a with
    | ⟨0, _⟩ => show win0_0.index t (0 : Fin 2) * 512 + 1 * p.val = t.val / 43 * 512 + p.val; omega
    | ⟨1, _⟩ => show win0_0.index t (1 : Fin 2) * 4096 + 1 * d.val = d.val; omega
  rw [he, V_rows]
  show shapeCast S4096x4096 (m ((c : Thread nD τ).loc main_arg0)) shapeCasts_S2x2048x4096_S4096x4096 (ix2 (⟨t.val / 43 * 512 + p.val, hR⟩ : Fin 4096) d) = _
  exact Cert.LibLayout.shapeCast_abc_mc_apply _ _ _ r s d h.symm

/-- Row `j` of point `t`'s gate-weight block is the weight row of inner unit `(t % 43)·256 + j`. -/
theorem gateW_apply (c : Dev nD) (t : Fin cfg0.N) (j : Fin 256) (d : Fin 4096) (J : Fin 11008)
    (h : J.val = t.val % 43 * 256 + j.val) :
    iblk m c 1 t (ix2 j d) = m ((c : Thread nD τ).loc main_arg1) (ix2 J d) := by
  obtain ⟨-, -, e0, e1, -⟩ := idx_facts t
  show V m c main_call0_v2 (((cfg0.win 1).blk t).view.emb (ix2 j d)) = _
  have he : ((cfg0.win 1).blk t).view.emb (ix2 j d) = (ix2 J d : S11008x4096.Idx) := by
    funext a; apply Fin.ext
    match a with
    | ⟨0, _⟩ => show win0_1.index t (0 : Fin 2) * 256 + 1 * j.val = J.val; omega
    | ⟨1, _⟩ => show win0_1.index t (1 : Fin 2) * 4096 + 1 * d.val = d.val; omega
  rw [he, V_gateW]
  rfl

/-- The same for the up-projection's weight block. -/
theorem upW_apply (c : Dev nD) (t : Fin cfg0.N) (j : Fin 256) (d : Fin 4096) (J : Fin 11008)
    (h : J.val = t.val % 43 * 256 + j.val) :
    iblk m c 3 t (ix2 j d) = m ((c : Thread nD τ).loc main_arg3) (ix2 J d) := by
  obtain ⟨-, -, -, -, -, -, e0, e1, -⟩ := idx_facts t
  show V m c main_call0_v3 (((cfg0.win 3).blk t).view.emb (ix2 j d)) = _
  have he : ((cfg0.win 3).blk t).view.emb (ix2 j d) = (ix2 J d : S11008x4096.Idx) := by
    funext a; apply Fin.ext
    match a with
    | ⟨0, _⟩ => show win0_3.index t (0 : Fin 2) * 256 + 1 * j.val = J.val; omega
    | ⟨1, _⟩ => show win0_3.index t (1 : Fin 2) * 4096 + 1 * d.val = d.val; omega
  rw [he, V_upW]
  rfl

/-- Entry `j` of point `t`'s gate-bias block is the bias of inner unit `(t % 43)·256 + j`. -/
theorem gateB_apply (c : Dev nD) (t : Fin cfg0.N) (j : Fin 256) (J : Fin 11008)
    (h : J.val = t.val % 43 * 256 + j.val) :
    iblk m c 2 t (ix2 (0 : Fin 1) j) = m ((c : Thread nD τ).loc main_arg2) (ix1 J) := by
  obtain ⟨-, -, -, -, e0, e1, -⟩ := idx_facts t
  show V m c main_call0_v5 (((cfg0.win 2).blk t).view.emb (ix2 (0 : Fin 1) j)) = _
  have he : ((cfg0.win 2).blk t).view.emb (ix2 (0 : Fin 1) j) = (ix2 (0 : Fin 1) J : S1x11008.Idx) := by
    funext a; apply Fin.ext
    match a with
    | ⟨0, _⟩ => show win0_2.index t (0 : Fin 2) * 1 + 1 * 0 = 0; omega
    | ⟨1, _⟩ => show win0_2.index t (1 : Fin 2) * 256 + 1 * j.val = J.val; omega
  rw [he, V_gateB]
  exact shapeCast_a_1a_apply _ _ _ _

/-- The same for the up-projection's bias block. -/
theorem upB_apply (c : Dev nD) (t : Fin cfg0.N) (j : Fin 256) (J : Fin 11008)
    (h : J.val = t.val % 43 * 256 + j.val) :
    iblk m c 4 t (ix2 (0 : Fin 1) j) = m ((c : Thread nD τ).loc main_arg4) (ix1 J) := by
  obtain ⟨-, -, -, -, -, -, -, -, e0, e1, -⟩ := idx_facts t
  show V m c main_call0_v6 (((cfg0.win 4).blk t).view.emb (ix2 (0 : Fin 1) j)) = _
  have he : ((cfg0.win 4).blk t).view.emb (ix2 (0 : Fin 1) j) = (ix2 (0 : Fin 1) J : S1x11008.Idx) := by
    funext a; apply Fin.ext
    match a with
    | ⟨0, _⟩ => show win0_4.index t (0 : Fin 2) * 1 + 1 * 0 = 0; omega
    | ⟨1, _⟩ => show win0_4.index t (1 : Fin 2) * 256 + 1 * j.val = J.val; omega
  rw [he, V_upB]
  exact shapeCast_a_1a_apply _ _ _ _

/-- Column `j` of point `t`'s output-weight block is the column of inner unit `(t % 43)·256 + j`, every row. -/
theorem downW_apply (c : Dev nD) (t : Fin cfg0.N) (q : Fin 4096) (j : Fin 256) (J : Fin 11008)
    (h : J.val = t.val % 43 * 256 + j.val) :
    iblk m c 5 t (ix2 q j) = m ((c : Thread nD τ).loc main_arg5) (ix2 q J) := by
  obtain ⟨-, -, -, -, -, -, -, -, -, -, e0, e1, -⟩ := idx_facts t
  show V m c main_call0_v4 (((cfg0.win 5).blk t).view.emb (ix2 q j)) = _
  have he : ((cfg0.win 5).blk t).view.emb (ix2 q j) = (ix2 q J : S4096x11008.Idx) := by
    funext a; apply Fin.ext
    match a with
    | ⟨0, _⟩ => show win0_5.index t (0 : Fin 2) * 4096 + 1 * q.val = q.val; omega
    | ⟨1, _⟩ => show win0_5.index t (1 : Fin 2) * 256 + 1 * j.val = J.val; omega
  rw [he, V_downW]
  rfl

/-- The output-bias block is the whole output bias at every point. -/
theorem downB_apply (c : Dev nD) (t : Fin cfg0.N) (q : Fin 4096) :
    iblk m c 6 t (ix2 (0 : Fin 1) q) = m ((c : Thread nD τ).loc main_arg6) (ix1 q) := by
  obtain ⟨-, -, -, -, -, -, -, -, -, -, -, -, e0, e1, -⟩ := idx_facts t
  show V m c main_call0_v7 (((cfg0.win 6).blk t).view.emb (ix2 (0 : Fin 1) q)) = _
  have he : ((cfg0.win 6).blk t).view.emb (ix2 (0 : Fin 1) q) = (ix2 (0 : Fin 1) q : S1x4096.Idx) := by
    funext a; apply Fin.ext
    match a with
    | ⟨0, _⟩ => show win0_6.index t (0 : Fin 2) * 1 + 1 * 0 = 0; omega
    | ⟨1, _⟩ => show win0_6.index t (1 : Fin 2) * 4096 + 1 * q.val = q.val; omega
  rw [he, V_downB]
  exact shapeCast_a_1a_apply _ _ _ _

end Cert.Mlp.Blocks

end
-- ==== Proof.KernelPay.lean ====
/-
  The kernel's arithmetic on one block, read index by index.

  On a block of 512 rows and 256 inner units the body forms the two inner projections (a matrix product with the
  transposed weight block, into a zero accumulator, plus the bias row broadcast over the rows), the hidden value
  `(g · σ(g)) · u`, and the product of the hidden block with the transposed output-weight block: at row `p` and
  output column `q` this is `∑ j, hidden(p, j) · wd(q, j)` over the block's 256 inner units. The format change
  between the two products is the identity on the extended reals, and a cast to the same shape is the identity.
-/
import proofs.«105601_j27573690040806_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Mlp.Pay

open Idealize.ShloMosaic Idealize.ShloMosaic.ValueIdx Cert.KernelIdeal Cert.KernelIdeal.Gen

/-- One block's inner projection: row `p` of the row block against row `j` of the weight block, plus the bias entry. -/
def blin (x0 : Vec Ideal S512x4096 .bf16) (w : Vec Ideal S256x4096 .bf16) (b : Vec Ideal S1x256 .f32) (p : Fin 512) (j : Fin 256) : EReal :=
  (∑ c : Fin 4096, x0 (ix2 p c) * w (ix2 j c)) + b (ix2 0 j)

/-- One block's hidden value: the gate `g · σ(g)` times the up projection. -/
def bhid (x0 : Vec Ideal S512x4096 .bf16) (x1 : Vec Ideal S256x4096 .bf16) (x2 : Vec Ideal S1x256 .f32) (x3 : Vec Ideal S256x4096 .bf16) (x4 : Vec Ideal S1x256 .f32) (p : Fin 512) (j : Fin 256) : EReal :=
  (blin x0 x1 x2 p j * Ideal.logistic (blin x0 x1 x2 p j)) * blin x0 x3 x4 p j

/-! ## The two matrix products at an index -/

theorem lhsA_0 (i : S512x256.Idx) (q : dot_S512x4096_S4096x256_S512x256_1_0_0_1_n_n.contr.Idx) :
    (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
theorem lhsA_1 (i : S512x256.Idx) (q : dot_S512x4096_S4096x256_S512x256_1_0_0_1_n_n.contr.Idx) :
    (dot_S512x4096_S4096x256_S512x256_1_0_0_1_n_n.lhsIdx i q 1).val = (q ⟨0, by decide⟩).val :=
  dot_S512x4096_S4096x256_S512x256_1_0_0_1_n_n.lhsIdx_val_of_single rfl i q
theorem rhsA_0 (i : S512x256.Idx) (q : dot_S512x4096_S4096x256_S512x256_1_0_0_1_n_n.contr.Idx) :
    (dot_S512x4096_S4096x256_S512x256_1_0_0_1_n_n.rhsIdx i q 0).val = (q ⟨0, by decide⟩).val :=
  dot_S512x4096_S4096x256_S512x256_1_0_0_1_n_n.rhsIdx_val_of_single rfl i q
theorem rhsA_1 (i : S512x256.Idx) (q : dot_S512x4096_S4096x256_S512x256_1_0_0_1_n_n.contr.Idx) :
    (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-- The product of a 512×4096 block with a 4096×256 block, into a zero accumulator, at `(p, j)`. -/
theorem dotA_apply (a : FVec Ideal S512x4096 .bf16) (m : FVec Ideal S4096x256 .bf16) (p : Fin 512) (j : Fin 256) :
    matmul (F := Ideal) dot_S512x4096_S4096x256_S512x256_1_0_0_1_n_n none a m (constant (F := Ideal) S512x256 .f32 0x00000000#32) (ix2 p j)
      = ∑ c : Fin 4096, a (ix2 p c) * m (ix2 c j) := by
  show FloatOps.matmul dot_S512x4096_S4096x256_S512x256_1_0_0_1_n_n none a m (constant (F := Ideal) S512x256 .f32 0x00000000#32) (ix2 p j) = _
  rw [Ideal.matmul_constant_zero_apply, ← Equiv.sum_comp (contrEquiv1 dot_S512x4096_S4096x256_S512x256_1_0_0_1_n_n 4096 rfl rfl).symm]
  refine Finset.sum_congr rfl fun c _ => ?_
  have hc := contrEquiv1_symm_val dot_S512x4096_S4096x256_S512x256_1_0_0_1_n_n 4096 rfl rfl c
  have el : dot_S512x4096_S4096x256_S512x256_1_0_0_1_n_n.lhsIdx (ix2 p j) ((contrEquiv1 dot_S512x4096_S4096x256_S512x256_1_0_0_1_n_n 4096 rfl rfl).symm c) = ix2 p c := funext fun ax => Fin.ext (by
    match ax with
    | ⟨0, _⟩ => exact lhsA_0 _ _
    | ⟨1, _⟩ => exact (lhsA_1 _ _).trans hc)
  have er : dot_S512x4096_S4096x256_S512x256_1_0_0_1_n_n.rhsIdx (ix2 p j) ((contrEquiv1 dot_S512x4096_S4096x256_S512x256_1_0_0_1_n_n 4096 rfl rfl).symm c) = ix2 c j := funext fun ax => Fin.ext (by
    match ax with
    | ⟨0, _⟩ => exact (rhsA_0 _ _).trans hc
    | ⟨1, _⟩ => exact rhsA_1 _ _)
  rw [el, er]

theorem lhsB_0 (i : S512x4096.Idx) (q : dot_S512x256_S256x4096_S512x4096_1_0_0_1_n_n.contr.Idx) :
    (dot_S512x256_S256x4096_S512x4096_1_0_0_1_n_n.lhsIdx i q 0).val = (i 0).val := by
  unfold DotDims.lhsIdx
  rw [dif_neg (show ¬(0 : Fin S512x256.rank) ∈ dot_S512x256_S256x4096_S512x4096_1_0_0_1_n_n.lhsBatch by decide), dif_pos (show (0 : Fin S512x256.rank) ∈ dot_S512x256_S256x4096_S512x4096_1_0_0_1_n_n.lhsNonContracting by decide)]
  rfl
theorem lhsB_1 (i : S512x4096.Idx) (q : dot_S512x256_S256x4096_S512x4096_1_0_0_1_n_n.contr.Idx) :
    (dot_S512x256_S256x4096_S512x4096_1_0_0_1_n_n.lhsIdx i q 1).val = (q ⟨0, by decide⟩).val :=
  dot_S512x256_S256x4096_S512x4096_1_0_0_1_n_n.lhsIdx_val_of_single rfl i q
theorem rhsB_0 (i : S512x4096.Idx) (q : dot_S512x256_S256x4096_S512x4096_1_0_0_1_n_n.contr.Idx) :
    (dot_S512x256_S256x4096_S512x4096_1_0_0_1_n_n.rhsIdx i q 0).val = (q ⟨0, by decide⟩).val :=
  dot_S512x256_S256x4096_S512x4096_1_0_0_1_n_n.rhsIdx_val_of_single rfl i q
theorem rhsB_1 (i : S512x4096.Idx) (q : dot_S512x256_S256x4096_S512x4096_1_0_0_1_n_n.contr.Idx) :
    (dot_S512x256_S256x4096_S512x4096_1_0_0_1_n_n.rhsIdx i q 1).val = (i 1).val := by
  unfold DotDims.rhsIdx
  rw [dif_neg (show ¬(1 : Fin S256x4096.rank) ∈ dot_S512x256_S256x4096_S512x4096_1_0_0_1_n_n.rhsBatch by decide), dif_pos (show (1 : Fin S256x4096.rank) ∈ dot_S512x256_S256x4096_S512x4096_1_0_0_1_n_n.rhsNonContracting by decide)]
  rfl

/-- The product of a 512×256 block with a 256×4096 block, into a zero accumulator, at `(p, q)`. -/
theorem dotB_apply (a : FVec Ideal S512x256 .bf16) (m : FVec Ideal S256x4096 .bf16) (p : Fin 512) (j : Fin 4096) :
    matmul (F := Ideal) dot_S512x256_S256x4096_S512x4096_1_0_0_1_n_n none a m (constant (F := Ideal) S512x4096 .f32 0x00000000#32) (ix2 p j)
      = ∑ c : Fin 256, a (ix2 p c) * m (ix2 c j) := by
  show FloatOps.matmul dot_S512x256_S256x4096_S512x4096_1_0_0_1_n_n none a m (constant (F := Ideal) S512x4096 .f32 0x00000000#32) (ix2 p j) = _
  rw [Ideal.matmul_constant_zero_apply, ← Equiv.sum_comp (contrEquiv1 dot_S512x256_S256x4096_S512x4096_1_0_0_1_n_n 256 rfl rfl).symm]
  refine Finset.sum_congr rfl fun c _ => ?_
  have hc := contrEquiv1_symm_val dot_S512x256_S256x4096_S512x4096_1_0_0_1_n_n 256 rfl rfl c
  have el : dot_S512x256_S256x4096_S512x4096_1_0_0_1_n_n.lhsIdx (ix2 p j) ((contrEquiv1 dot_S512x256_S256x4096_S512x4096_1_0_0_1_n_n 256 rfl rfl).symm c) = ix2 p c := funext fun ax => Fin.ext (by
    match ax with
    | ⟨0, _⟩ => exact lhsB_0 _ _
    | ⟨1, _⟩ => exact (lhsB_1 _ _).trans hc)
  have er : dot_S512x256_S256x4096_S512x4096_1_0_0_1_n_n.rhsIdx (ix2 p j) ((contrEquiv1 dot_S512x256_S256x4096_S512x4096_1_0_0_1_n_n 256 rfl rfl).symm c) = ix2 c j := funext fun ax => Fin.ext (by
    match ax with
    | ⟨0, _⟩ => exact (rhsB_0 _ _).trans hc
    | ⟨1, _⟩ => exact rhsB_1 _ _)
  rw [el, er]

/-! ## An inner projection at an index -/

/-- The logistic function of a block, at an index. -/
theorem logistic_apply {s : Shape} (v : FVec Ideal s .f32) (i : s.Idx) : logistic v i = Ideal.logistic (v i) := rfl

/-- The product with the transposed weight block plus the broadcast bias row, at `(p, j)`, is the inner projection. -/
theorem lin_apply (x0 : Vec Ideal S512x4096 .bf16) (w : Vec Ideal S256x4096 .bf16) (b : Vec Ideal S1x256 .f32) (p : Fin 512) (j : Fin 256) :
    addf (matmul (F := Ideal) (φ₁ := .bf16) (φ₂ := .bf16) dot_S512x4096_S4096x256_S512x256_1_0_0_1_n_n none x0
        (transpose S4096x256 [1, 0] w transposes_S256x4096_p1_0_S4096x256) (constant (F := Ideal) S512x256 .f32 0x00000000#32))
      (broadcastTo S512x256 b broadcasts_S1x256_S512x256) (ix2 p j) = blin x0 w b p j := by
  rw [addf_apply, dotA_apply, broadcastTo_1b_ab_apply]
  unfold blin
  refine congrArg (· + b (ix2 0 j)) (Finset.sum_congr rfl fun c _ => ?_)
  rw [transpose_ix2_apply]

/-! ## The payloads at an index -/

/-- The last step's store: the accumulated block plus the output bias row. -/
theorem pay1_apply (v35 : Vec Ideal S512x4096 .f32) (v37 : Vec Ideal S1x4096 .f32) (p : Fin 512) (q : Fin 4096) :
    k0_pay1 (F := Ideal) v35 v37 (ix2 p q) = v35 (ix2 p q) + v37 (ix2 0 q) := by
  unfold k0_pay1
  rw [addf_apply, shapeCast_self, shapeCast_self, broadcastTo_1b_ab_apply]

/-- The first inner step's store: the hidden block against the transposed output-weight block. -/
theorem pay2_apply (x0 : Vec Ideal S512x4096 .bf16) (x1 : Vec Ideal S256x4096 .bf16) (x2 : Vec Ideal S1x256 .f32) (x3 : Vec Ideal S256x4096 .bf16) (x4 : Vec Ideal S1x256 .f32) (x5 : Vec Ideal S4096x256 .bf16) (p : Fin 512) (q : Fin 4096) :
    k0_pay2 (F := Ideal) x0 x1 x3 x2 x4 x5 (ix2 p q) = ∑ j : Fin 256, bhid x0 x1 x2 x3 x4 p j * x5 (ix2 q j) := by
  unfold k0_pay2
  rw [shapeCast_self, shapeCast_self, shapeCast_self, shapeCast_self, shapeCast_self, shapeCast_self]
  rw [dotB_apply]
  refine Finset.sum_congr rfl fun j _ => ?_
  rw [truncf_apply, transpose_ix2_apply, mulf_apply, mulf_apply, logistic_apply, lin_apply, lin_apply]
  rfl

/-- A later inner step's store: the block accumulated so far plus this step's product. -/
theorem pay3_apply (x0 : Vec Ideal S512x4096 .bf16) (x1 : Vec Ideal S256x4096 .bf16) (x2 : Vec Ideal S1x256 .f32) (x3 : Vec Ideal S256x4096 .bf16) (x4 : Vec Ideal S1x256 .f32) (x5 : Vec Ideal S4096x256 .bf16) (xo : Vec Ideal S512x4096 .f32) (p : Fin 512) (q : Fin 4096) :
    k0_pay3 (F := Ideal) x0 x1 x3 x2 x4 x5 xo (ix2 p q) = xo (ix2 p q) + k0_pay2 (F := Ideal) x0 x1 x3 x2 x4 x5 (ix2 p q) := by
  unfold k0_pay3
  rw [addf_apply, shapeCast_self]

end Cert.Mlp.Pay

end
-- ==== Proof.LibTileAccum.lean ====
/-
  A running total kept along tiles of `L` points each.

  The points `0, 1, 2, …` are cut into consecutive rows of `L` points. A total `a` is reset to the point's term at
  the first point of a row, is added to at every later point of the row, and at the row's last point an extra
  term `b` is added as well. Then at the last point of a row the total is the sum of that row's `L` terms plus `b`.
-/
import Mathlib.Algebra.BigOperators.Group.Finset.Basic

open scoped BigOperators

namespace Cert.Lib.TileAccum

/-- The position inside a row of the next point: back to `0` after the last position, one more otherwise. -/
theorem succ_mod (L n : ℕ) (hL : 2 ≤ L) : (n + 1) % L = if n % L = L - 1 then 0 else n % L + 1 := by
  have hr : n % L < L := Nat.mod_lt _ (by omega)
  have h1 : 1 % L = 1 := Nat.mod_eq_of_lt (by omega)
  rw [Nat.add_mod_eq_ite, h1]
  split_ifs <;> omega

/-- Before a row's last point the total is the sum of the row's terms up to the point. -/
theorem partial_eq {M : Type*} [AddCommMonoid M] (L N : ℕ) (hL : 2 ≤ L) (P a : ℕ → M)
    (h0 : 0 < N → a 0 = P 0)
    (hfirst : ∀ n, n + 1 < N → (n + 1) % L = 0 → a (n + 1) = P (n + 1))
    (hmid : ∀ n, n + 1 < N → (n + 1) % L ≠ 0 → (n + 1) % L ≠ L - 1 → a (n + 1) = a n + P (n + 1)) :
    ∀ n, n < N → n % L ≠ L - 1 → a n = ∑ k ∈ Finset.range (n % L + 1), P (n - n % L + k) := by
  intro n
  induction n with
  | zero =>
    intro hN _
    rw [Nat.zero_mod, Finset.sum_range_one]
    exact h0 hN
  | succ n ih =>
    intro hN hne
    have hs := succ_mod L n hL
    by_cases hz : (n + 1) % L = 0
    · rw [hz, Finset.sum_range_one]
      exact hfirst n hN hz
    · have hr : n % L ≠ L - 1 := fun h => hz (by rw [hs, if_pos h])
      rw [if_neg hr] at hs
      have hle : n % L ≤ n := Nat.mod_le _ _
      have e1 : n + 1 - (n % L + 1) = n - n % L := by omega
      have e2 : n - n % L + (n % L + 1) = n + 1 := by omega
      rw [hs, Finset.sum_range_succ, e1, e2, ← ih (by omega) hr]
      exact hmid n hN hz hne

/-- At a row's last point the total is the sum of the row's `L` terms plus the extra term. -/
theorem last_eq {M : Type*} [AddCommMonoid M] (L N : ℕ) (hL : 2 ≤ L) (P b a : ℕ → M)
    (h0 : 0 < N → a 0 = P 0)
    (hfirst : ∀ n, n + 1 < N → (n + 1) % L = 0 → a (n + 1) = P (n + 1))
    (hmid : ∀ n, n + 1 < N → (n + 1) % L ≠ 0 → (n + 1) % L ≠ L - 1 → a (n + 1) = a n + P (n + 1))
    (hlast : ∀ n, n + 1 < N → (n + 1) % L = L - 1 → a (n + 1) = (a n + P (n + 1)) + b (n + 1)) :
    ∀ n, n < N → n % L = L - 1 → a n = (∑ k ∈ Finset.range L, P (n - (L - 1) + k)) + b n := by
  intro n hN hn
  obtain ⟨m, rfl⟩ : ∃ m, n = m + 1 := by
    refine ⟨n - 1, ?_⟩
    have : n ≠ 0 := fun h => by rw [h, Nat.zero_mod] at hn; omega
    omega
  have hs := succ_mod L m hL
  have hr : m % L ≠ L - 1 := fun h => by rw [hs, if_pos h] at hn; omega
  rw [if_neg hr] at hs
  have hm : m % L + 1 = L - 1 := by omega
  have hle : m % L ≤ m := Nat.mod_le _ _
  have ih := partial_eq L N hL P a h0 hfirst hmid m (by omega) hr
  have eR : Finset.range L = Finset.range (m % L + 1 + 1) := congrArg Finset.range (by omega)
  have e1 : m + 1 - (L - 1) = m - m % L := by omega
  have e2 : m - m % L + (m % L + 1) = m + 1 := by omega
  rw [hlast m hN hn, e1, ih, eR, Finset.sum_range_succ _ (m % L + 1), e2]

/-- The same with rows of 43 points. -/
theorem last_eq_43 {M : Type*} [AddCommMonoid M] (N : ℕ) (P b a : ℕ → M)
    (h0 : 0 < N → a 0 = P 0)
    (hfirst : ∀ n, n + 1 < N → (n + 1) % 43 = 0 → a (n + 1) = P (n + 1))
    (hmid : ∀ n, n + 1 < N → (n + 1) % 43 ≠ 0 → (n + 1) % 43 ≠ 42 → a (n + 1) = a n + P (n + 1))
    (hlast : ∀ n, n + 1 < N → (n + 1) % 43 = 42 → a (n + 1) = (a n + P (n + 1)) + b (n + 1)) :
    ∀ n, n < N → n % 43 = 42 → a n = (∑ k ∈ Finset.range 43, P (n - 42 + k)) + b n :=
  last_eq 43 N (by omega) P b a h0 hfirst hmid hlast

end Cert.Lib.TileAccum
-- ==== Proof.LibTiles.lean ====
/-
  A sum over a range of `n * b` consecutive indices, cut into `n` consecutive tiles of width `b`:
  the index `k * b + j` is the `j`-th element of the `k`-th tile.
-/
import Mathlib.Algebra.BigOperators.Fin
import Mathlib.Logic.Equiv.Fin.Basic
import Mathlib.Data.EReal.Basic

open scoped BigOperators

namespace Cert.Lib.Tiles

/-- The `j`-th element of the `k`-th tile of width `b` lies below `n * b`. -/
theorem tile_lt {n b : ℕ} (k : Fin n) (j : Fin b) : k.val * b + j.val < n * b :=
  calc k.val * b + j.val < k.val * b + b := Nat.add_lt_add_left j.isLt _
    _ = (k.val + 1) * b := (Nat.succ_mul _ _).symm
    _ ≤ n * b := Nat.mul_le_mul_right b k.isLt

/-- A sum over `Fin (n * b)` is the sum over the `n` tiles of the sums over each tile's `b` elements. -/
theorem sum_tiles {M : Type*} [AddCommMonoid M] (n b : ℕ) (f : Fin (n * b) → M) :
    ∑ i : Fin (n * b), f i = ∑ k : Fin n, ∑ j : Fin b, f ⟨k.val * b + j.val, tile_lt k j⟩ := by
  rw [← Equiv.sum_comp finProdFinEquiv f, Fintype.sum_prod_type]
  refine Finset.sum_congr rfl fun k _ => Finset.sum_congr rfl fun j _ => ?_
  refine congrArg f (Fin.ext ?_)
  show j.val + b * k.val = k.val * b + j.val
  rw [Nat.mul_comm, Nat.add_comm]

/-- The inner width 11008 as 43 tiles of width 256. -/
theorem sum_11008 (f : Fin 11008 → EReal) :
    ∑ i : Fin 11008, f i = ∑ k : Fin 43, ∑ j : Fin 256, f ⟨k.val * 256 + j.val, by omega⟩ :=
  sum_tiles 43 256 f

end Cert.Lib.Tiles
-- ==== Proof.Spec.lean ====
/-
  The function both programs compute, index by index, on the extended reals.

  A gated feed-forward layer over rows `x(r, s, ·)` of width 4096 and an inner width of 11008:
  for an inner unit `j` the two pre-activations are `g = ∑ c, x(r,s,c)·wg(j,c) + bg(j)` and
  `u = ∑ c, x(r,s,c)·wu(j,c) + bu(j)`, the hidden value is `(g · σ(g)) · u` with `σ(g) = 1 / (1 + e^(-g))`,
  and the result at output column `h` is `∑ j, hidden(j) · wd(h, j) + bd(h)`.
-/
import Idealize.ShloMosaic.PureOps.Ideal
import Idealize.ShloMosaic.Lib.ValueIdx

noncomputable section

open scoped BigOperators

namespace Cert.Mlp

open Idealize.ShloMosaic Idealize.ShloMosaic.ValueIdx

/-- The rows: two batches of 2048 rows of width 4096. -/
abbrev SX : Shape := ⟨3, ![2, 2048, 4096]⟩
/-- An inner projection's weights: one row of width 4096 per inner unit. -/
abbrev SW : Shape := ⟨2, ![11008, 4096]⟩
/-- An inner projection's bias. -/
abbrev SB : Shape := ⟨1, ![11008]⟩
/-- The output projection's weights: one row of width 11008 per output column. -/
abbrev SD : Shape := ⟨2, ![4096, 11008]⟩
/-- The output projection's bias. -/
abbrev SH : Shape := ⟨1, ![4096]⟩

/-- An inner projection of row `(r, s)` at inner unit `j`: the dot product with the unit's weight row, plus its bias. -/
def lin (x : SX.Idx → EReal) (w : SW.Idx → EReal) (b : SB.Idx → EReal) (r : Fin 2) (s : Fin 2048) (j : Fin 11008) : EReal :=
  (∑ c : Fin 4096, x (ix3 r s c) * w (ix2 j c)) + b (ix1 j)

/-- The hidden value of row `(r, s)` at inner unit `j`: the gate `g · σ(g)` times the up projection. -/
def hid (x : SX.Idx → EReal) (wg : SW.Idx → EReal) (bg : SB.Idx → EReal) (wu : SW.Idx → EReal) (bu : SB.Idx → EReal)
    (r : Fin 2) (s : Fin 2048) (j : Fin 11008) : EReal :=
  (lin x wg bg r s j * Ideal.logistic (lin x wg bg r s j)) * lin x wu bu r s j

/-- The layer's result: the hidden row against the output column's weight row, plus the output bias. -/
def G (x : SX.Idx → EReal) (wg : SW.Idx → EReal) (bg : SB.Idx → EReal) (wu : SW.Idx → EReal) (bu : SB.Idx → EReal)
    (wd : SD.Idx → EReal) (bd : SH.Idx → EReal) : SX.Idx → EReal :=
  fun i => (∑ j : Fin 11008, hid x wg bg wu bu (i 0) (i 1) j * wd (ix2 (i 2) j)) + bd (ix1 (i 2))

end Cert.Mlp

end
-- ==== Proof.Accum.lean ====
/-
  What the output block's accumulator holds after the last tile of a row block, at an entry.

  Along the 43 tiles of a row block the accumulator is reset to the first tile's partial product, each later tile adds
  its own, and the last tile adds the output bias. A tile's partial product at entry `(p, q)` is the sum over the
  tile's 256 inner units of hidden value times output weight; the inner units of tile `k` are `k·256 + j`. So after the
  last tile the entry is the sum over all 43·256 = 11008 inner units plus the bias: the layer's function at row
  `(t / 43)·512 + p` and column `q`.
-/
import proofs.«105601_j27573690040806_2_alg».proof.Proof.BodyKernelIdeal
import proofs.«105601_j27573690040806_2_alg».proof.Proof.Blocks
import proofs.«105601_j27573690040806_2_alg».proof.Proof.KernelPay
import proofs.«105601_j27573690040806_2_alg».proof.Proof.LibTileAccum
import proofs.«105601_j27573690040806_2_alg».proof.Proof.LibTiles
import proofs.«105601_j27573690040806_2_alg».proof.Proof.Spec

set_option maxRecDepth 16384

noncomputable section

open scoped BigOperators

namespace Cert.Mlp.Accum

open Cert.KernelIdeal Cert.KernelIdeal.Gen Cert.KernelIdeal.Body Cert.Mlp.Blocks Cert.Mlp.Pay
open Idealize.ShloMosaic Idealize.ShloMosaic.TcCoe Idealize.SL.Sem Idealize.ShloMosaic.ValueIdx

variable (m : (ℓ : Loc nD τ sig) → Buf (Elt Ideal) ℓ)

/-- The argument arrays on core `c`, by name. -/
abbrev aX (c : Dev nD) : Cert.Mlp.SX.Idx → EReal := m ((c : Thread nD τ).loc main_arg0)
abbrev aWg (c : Dev nD) : Cert.Mlp.SW.Idx → EReal := m ((c : Thread nD τ).loc main_arg1)
abbrev aBg (c : Dev nD) : Cert.Mlp.SB.Idx → EReal := m ((c : Thread nD τ).loc main_arg2)
abbrev aWu (c : Dev nD) : Cert.Mlp.SW.Idx → EReal := m ((c : Thread nD τ).loc main_arg3)
abbrev aBu (c : Dev nD) : Cert.Mlp.SB.Idx → EReal := m ((c : Thread nD τ).loc main_arg4)
abbrev aWd (c : Dev nD) : Cert.Mlp.SD.Idx → EReal := m ((c : Thread nD τ).loc main_arg5)
abbrev aBd (c : Dev nD) : Cert.Mlp.SH.Idx → EReal := m ((c : Thread nD τ).loc main_arg6)

/-- A block's inner projection is the layer's, at the block's row and inner unit. -/
theorem blin_gate (c : Dev nD) (t : Fin cfg0.N) (p : Fin 512) (j : Fin 256) (r : Fin 2) (s : Fin 2048) (J : Fin 11008)
    (hr : r.val * 2048 + s.val = t.val / 43 * 512 + p.val) (hJ : J.val = t.val % 43 * 256 + j.val) :
    blin (iblk m c 0 t) (iblk m c 1 t) (iblk m c 2 t) p j = Cert.Mlp.lin (aX m c) (aWg m c) (aBg m c) r s J := by
  unfold blin Cert.Mlp.lin
  rw [gateB_apply m c t j J hJ]
  exact congrArg (· + _) (Finset.sum_congr rfl fun d _ => by rw [rows_apply m c t p d r s hr, gateW_apply m c t j d J hJ])

theorem blin_up (c : Dev nD) (t : Fin cfg0.N) (p : Fin 512) (j : Fin 256) (r : Fin 2) (s : Fin 2048) (J : Fin 11008)
    (hr : r.val * 2048 + s.val = t.val / 43 * 512 + p.val) (hJ : J.val = t.val % 43 * 256 + j.val) :
    blin (iblk m c 0 t) (iblk m c 3 t) (iblk m c 4 t) p j = Cert.Mlp.lin (aX m c) (aWu m c) (aBu m c) r s J := by
  unfold blin Cert.Mlp.lin
  rw [upB_apply m c t j J hJ]
  exact congrArg (· + _) (Finset.sum_congr rfl fun d _ => by rw [rows_apply m c t p d r s hr, upW_apply m c t j d J hJ])

/-- A block's hidden value is the layer's. -/
theorem bhid_eq (c : Dev nD) (t : Fin cfg0.N) (p : Fin 512) (j : Fin 256) (r : Fin 2) (s : Fin 2048) (J : Fin 11008)
    (hr : r.val * 2048 + s.val = t.val / 43 * 512 + p.val) (hJ : J.val = t.val % 43 * 256 + j.val) :
    bhid (iblk m c 0 t) (iblk m c 1 t) (iblk m c 2 t) (iblk m c 3 t) (iblk m c 4 t) p j
      = Cert.Mlp.hid (aX m c) (aWg m c) (aBg m c) (aWu m c) (aBu m c) r s J := by
  unfold bhid Cert.Mlp.hid
  rw [blin_gate m c t p j r s J hr hJ, blin_up m c t p j r s J hr hJ]

/-- Tile `t % 43`'s partial product at entry `(p, q)`: the tile's 256 inner units of the layer's sum. -/
theorem part_apply (c : Dev nD) (t : Fin cfg0.N) (p : Fin 512) (q : Fin 4096) (r : Fin 2) (s : Fin 2048)
    (hr : r.val * 2048 + s.val = t.val / 43 * 512 + p.val) :
    k0_pay2 (F := Ideal) (iblk m c 0 t) (iblk m c 1 t) (iblk m c 3 t) (iblk m c 2 t) (iblk m c 4 t) (iblk m c 5 t) (ix2 p q)
      = ∑ j : Fin 256, (if h : t.val % 43 * 256 + j.val < 11008 then
          Cert.Mlp.hid (aX m c) (aWg m c) (aBg m c) (aWu m c) (aBu m c) r s ⟨t.val % 43 * 256 + j.val, h⟩
            * aWd m c (ix2 q (⟨t.val % 43 * 256 + j.val, h⟩ : Fin 11008)) else (0 : EReal)) := by
  rw [pay2_apply]
  refine Finset.sum_congr rfl fun j _ => ?_
  have hj : t.val % 43 * 256 + j.val < 11008 := by have := j.isLt; have := Nat.mod_lt t.val (show 0 < 43 by decide); omega
  rw [dif_pos hj, bhid_eq m c t p j r s ⟨_, hj⟩ hr rfl, downW_apply m c t q j ⟨_, hj⟩ rfl]

/-! ## The accumulator after a row block's last tile -/

/-- After the last tile of a row block the accumulator's entry `(p, q)` is the sum of the row block's 43 partial
    products at that entry, plus the output bias at `q`. -/
theorem acc_last (c : Dev nD) (t : Fin cfg0.N) (h42 : t.val % 43 = 42) (p : Fin 512) (q : Fin 4096) :
    accAt m c t.val t.isLt (ix2 p q)
      = (∑ k ∈ Finset.range 43, (if h : t.val - 42 + k < cfg0.N then
            k0_pay2 (F := Ideal) (iblk m c 0 ⟨t.val - 42 + k, h⟩) (iblk m c 1 ⟨t.val - 42 + k, h⟩) (iblk m c 3 ⟨t.val - 42 + k, h⟩) (iblk m c 2 ⟨t.val - 42 + k, h⟩) (iblk m c 4 ⟨t.val - 42 + k, h⟩) (iblk m c 5 ⟨t.val - 42 + k, h⟩) (ix2 p q) else (0 : EReal)))
        + (iblk m c 6 t (ix2 (0 : Fin 1) q) : EReal) := by
  have key := Cert.Lib.TileAccum.last_eq_43 (M := EReal) cfg0.N
    (fun n => if h : n < cfg0.N then k0_pay2 (F := Ideal) (iblk m c 0 ⟨n, h⟩) (iblk m c 1 ⟨n, h⟩) (iblk m c 3 ⟨n, h⟩) (iblk m c 2 ⟨n, h⟩) (iblk m c 4 ⟨n, h⟩) (iblk m c 5 ⟨n, h⟩) (ix2 p q) else (0 : EReal))
    (fun n => if h : n < cfg0.N then (iblk m c 6 ⟨n, h⟩ (ix2 (0 : Fin 1) q) : EReal) else (0 : EReal))
    (fun n => if h : n < cfg0.N then accAt m c n h (ix2 p q) else (0 : EReal))
    (fun h0 => by
      show (if h : 0 < cfg0.N then accAt m c 0 h (ix2 p q) else (0 : EReal)) = (if h : 0 < cfg0.N then _ else (0 : EReal))
      rw [dif_pos h0, dif_pos h0]
      exact congrFun (accAt_first m c ⟨0, h0⟩ (Nat.zero_mod _)) _)
    (fun n hn hm => by
      show (if h : n + 1 < cfg0.N then accAt m c (n + 1) h (ix2 p q) else (0 : EReal)) = (if h : n + 1 < cfg0.N then _ else (0 : EReal))
      rw [dif_pos hn, dif_pos hn]
      exact congrFun (accAt_first m c ⟨n + 1, hn⟩ hm) _)
    (fun n hn hm0 hm42 => by
      have hn' : n < cfg0.N := Nat.lt_of_succ_lt hn
      show (if h : n + 1 < cfg0.N then accAt m c (n + 1) h (ix2 p q) else (0 : EReal))
        = (if h : n < cfg0.N then accAt m c n h (ix2 p q) else (0 : EReal)) + (if h : n + 1 < cfg0.N then _ else (0 : EReal))
      rw [dif_pos hn, dif_pos hn, dif_pos hn']
      rw [accAt_mid m c ⟨n + 1, hn⟩ hm0 hm42]
      exact pay3_apply _ _ _ _ _ _ _ p q)
    (fun n hn hm42 => by
      have hn' : n < cfg0.N := Nat.lt_of_succ_lt hn
      show (if h : n + 1 < cfg0.N then accAt m c (n + 1) h (ix2 p q) else (0 : EReal))
        = ((if h : n < cfg0.N then accAt m c n h (ix2 p q) else (0 : EReal)) + (if h : n + 1 < cfg0.N then _ else (0 : EReal)))
          + (if h : n + 1 < cfg0.N then (iblk m c 6 ⟨n + 1, h⟩ (ix2 (0 : Fin 1) q) : EReal) else (0 : EReal))
      rw [dif_pos hn, dif_pos hn, dif_pos hn, dif_pos hn']
      rw [accAt_last m c ⟨n + 1, hn⟩ hm42, pay1_apply, pay3_apply]
      rfl)
    t.val t.isLt h42
  have hk : (if h : t.val < cfg0.N then accAt m c t.val h (ix2 p q) else (0 : EReal)) = accAt m c t.val t.isLt (ix2 p q) := dif_pos t.isLt
  have hb : (if h : t.val < cfg0.N then (iblk m c 6 ⟨t.val, h⟩ (ix2 (0 : Fin 1) q) : EReal) else (0 : EReal)) = iblk m c 6 t (ix2 (0 : Fin 1) q) := dif_pos t.isLt
  rw [← hk, ← hb]
  exact key

/-- So it is the layer's function at row `(t / 43)·512 + p` and column `q`. -/
theorem acc_last_eq_G (c : Dev nD) (t : Fin cfg0.N) (h42 : t.val % 43 = 42) (p : Fin 512) (q : Fin 4096)
    (r : Fin 2) (s : Fin 2048) (hr : r.val * 2048 + s.val = t.val / 43 * 512 + p.val) :
    accAt m c t.val t.isLt (ix2 p q)
      = Cert.Mlp.G (aX m c) (aWg m c) (aBg m c) (aWu m c) (aBu m c) (aWd m c) (aBd m c) (ix3 r s q) := by
  have hN : t.val < 344 := lt_of_lt_of_eq t.isLt (show cfg0.N = 344 from N_0)
  rw [acc_last m c t h42 p q, downB_apply m c t q]
  show _ = (∑ J : Fin 11008, Cert.Mlp.hid (aX m c) (aWg m c) (aBg m c) (aWu m c) (aBu m c) r s J * aWd m c (ix2 q J)) + aBd m c (ix1 q)
  refine congrArg (· + _) ?_
  rw [Cert.Lib.Tiles.sum_11008, Finset.sum_range]
  refine Finset.sum_congr rfl fun k _ => ?_
  have hk : k.val < 43 := k.isLt
  have hlt : t.val - 42 + k.val < cfg0.N := lt_of_lt_of_eq (by omega) (show 344 = cfg0.N from N_0.symm)
  rw [dif_pos hlt]
  have hdiv : (t.val - 42 + k.val) / 43 = t.val / 43 := by omega
  have hmod : (t.val - 42 + k.val) % 43 = k.val := by omega
  rw [part_apply m c ⟨t.val - 42 + k.val, hlt⟩ p q r s (by show r.val * 2048 + s.val = (t.val - 42 + k.val) / 43 * 512 + p.val; rw [hdiv]; exact hr)]
  refine Finset.sum_congr rfl fun j _ => ?_
  have hj : j.val < 256 := j.isLt
  have hJ : (t.val - 42 + k.val) % 43 * 256 + j.val < 11008 := by rw [hmod]; omega
  rw [dif_pos hJ]
  have hJe : (⟨(t.val - 42 + k.val) % 43 * 256 + j.val, hJ⟩ : Fin 11008) = ⟨k.val * 256 + j.val, by omega⟩ := Fin.ext (by show (t.val - 42 + k.val) % 43 * 256 + j.val = k.val * 256 + j.val; rw [hmod])
  rw [hJe]

end Cert.Mlp.Accum

end
-- ==== Proof.Final.lean ====
/-
  The kernel's result array is the layer's function of the argument arrays.

  Each row block's output block is written back once, after the row block's last tile, holding the layer's function
  at the block's rows; the eight row blocks tile the `[4096, 4096]` result, which the host line after the region
  reshapes to `[2, 2048, 4096]`: row `r·2048 + s` of the flat array is row `s` of batch `r`.
-/
import proofs.«105601_j27573690040806_2_alg».proof.Proof.Accum
import proofs.«105601_j27573690040806_2_alg».proof.Proof.FrameKernelIdeal

set_option maxRecDepth 16384

noncomputable section

open scoped BigOperators

namespace Cert.Mlp.Final

open Cert.KernelIdeal Cert.KernelIdeal.Gen Cert.KernelIdeal.Body Cert.Mlp.Blocks Cert.Mlp.Accum
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-- The layer's function of the argument arrays on core `c`. -/
abbrev Gm (c : Dev nD) : Cert.Mlp.SX.Idx → EReal :=
  Cert.Mlp.G (aX m c) (aWg m c) (aBg m c) (aWu m c) (aBu m c) (aWd m c) (aBd m c)

/-- The same with the two row axes flattened: flat row `R` is row `R % 2048` of batch `R / 2048`. -/
def Gflat (c : Dev nD) : S4096x4096.Idx → EReal := fun i =>
  Gm m c (ix3 (⟨(i 0).val / 2048, by have := idx2_lt0 i; omega⟩ : Fin 2) (⟨(i 0).val % 2048, Nat.mod_lt _ (by decide)⟩ : Fin 2048) (i 1))

/-- What a row block's last tile writes back is the block of the flat function. -/
theorem flushed7_eq (c : Dev nD) (t : Fin cfg0.N) (hf : (cfg0.win 7).flush t = true) :
    (dats m 0 c).flushed 7 t = ((cfg0.win 7).blk t).view.read (Elt Ideal) (Gflat m c) := by
  have h42 : t.val % 43 = 42 := (flush0_7 t).mp hf
  have hN : t.val < 344 := lt_of_lt_of_eq t.isLt (show cfg0.N = 344 from N_0)
  obtain ⟨-, -, -, -, -, -, -, -, -, -, -, -, -, -, e0, e1⟩ := idx_facts t
  show (cfg0.win 7).cut (grid0.coords t) ((dats m 0 c).after 7 t) = _
  rw [after0_7]
  funext j
  obtain ⟨p, q, rfl⟩ : ∃ (p : Fin 512) (q : Fin 4096), j = ix2 p q := ⟨j 0, j 1, eq_ix2 j⟩
  show accAt m c t.val t.isLt (ix2 p q) = Gflat m c (((cfg0.win 7).blk t).view.emb (ix2 p q))
  have hR : t.val / 43 * 512 + p.val < 4096 := by have := p.isLt; omega
  have he : ((cfg0.win 7).blk t).view.emb (ix2 p q) = (ix2 (⟨t.val / 43 * 512 + p.val, hR⟩ : Fin 4096) q : S4096x4096.Idx) := by
    funext a; apply Fin.ext
    match a with
    | ⟨0, _⟩ => show win0_7.index t (0 : Fin 2) * 512 + 1 * p.val = t.val / 43 * 512 + p.val; omega
    | ⟨1, _⟩ => show win0_7.index t (1 : Fin 2) * 4096 + 1 * q.val = q.val; omega
  rw [he]
  exact acc_last_eq_G m c t h42 p q _ _ (by
    show (t.val / 43 * 512 + p.val) / 2048 * 2048 + (t.val / 43 * 512 + p.val) % 2048 = t.val / 43 * 512 + p.val
    omega)

/-- An index of the flat array is in point `t`'s output block iff each coordinate is in the block's range. -/
theorem mem_blk7 (t : Fin cfg0.N) (i : S4096x4096.Idx) :
    i ∈ ((cfg0.win 7).blk t).view.set ↔ ∀ a : Fin 2, win0_7.index t a * S512x4096.size a ≤ (i a).val ∧ (i a).val < win0_7.index t a * S512x4096.size a + S512x4096.size a := by
  show i ∈ ((View.whole main_call0_v8).slice (win0_7.rect t)).set ↔ _
  rw [View.set_slice_whole, Rect.mem_set_unit]
  exact Iff.rfl

/-- Every entry of the flat array is in the block some last tile writes back: row `R` is in row block `R / 512`. -/
theorem cover7 (i : S4096x4096.Idx) : ∃ t : Fin cfg0.N, (cfg0.win 7).flush t = true ∧ i ∈ ((cfg0.win 7).blk t).view.set := by
  have hi0 : (i 0).val < 4096 := idx2_lt0 i
  have hi1 : (i 1).val < 4096 := idx2_lt1 i
  have ht : (i 0).val / 512 * 43 + 42 < cfg0.N := lt_of_lt_of_eq (by omega) (show 344 = cfg0.N from N_0.symm)
  refine ⟨⟨(i 0).val / 512 * 43 + 42, ht⟩, (flush0_7 _).mpr (by show ((i 0).val / 512 * 43 + 42) % 43 = 42; omega), ?_⟩
  obtain ⟨-, -, -, -, -, -, -, -, -, -, -, -, -, -, e0, e1⟩ := idx_facts ⟨(i 0).val / 512 * 43 + 42, ht⟩
  have e0' : win0_7.index ⟨(i 0).val / 512 * 43 + 42, ht⟩ (0 : Fin 2) = (i 0).val / 512 := by
    rw [e0]; show ((i 0).val / 512 * 43 + 42) / 43 = (i 0).val / 512; omega
  rw [mem_blk7]
  intro a
  match a with
  | ⟨0, _⟩ => show win0_7.index _ (0 : Fin 2) * 512 ≤ (i 0).val ∧ (i 0).val < win0_7.index _ (0 : Fin 2) * 512 + 512; rw [e0']; omega
  | ⟨1, _⟩ => show win0_7.index _ (1 : Fin 2) * 4096 ≤ (i 1).val ∧ (i 1).val < win0_7.index _ (1 : Fin 2) * 4096 + 4096; rw [e1]; omega

/-- The result array after the region is the flat function. -/
theorem final7 (c : Dev nD) : (dats m 0 c).arrAt 7 cfg0.N = Gflat m c :=
  (dats m 0 c).arrAt_eq_of_cover 7 (Gflat m c) (fun t hf => flushed7_eq m c t hf) cover7

/-- The flat function reshaped is the layer's function. -/
theorem reshape_Gflat (c : Dev nD) :
    (shapeCast S2x2048x4096 (Gflat m c) shapeCasts_S4096x4096_S2x2048x4096 : S2x2048x4096.Idx → EReal) = Gm m c := by
  funext i
  obtain ⟨r, s, q, rfl⟩ : ∃ (r : Fin 2) (s : Fin 2048) (q : Fin 4096), i = ix3 r s q := ⟨i 0, i 1, i 2, eq_ix3 i⟩
  have hR : r.val * 2048 + s.val < 4096 := by have := r.isLt; have := s.isLt; omega
  rw [Cert.LibLayout.shapeCast_mc_abc_apply (Gflat m c) shapeCasts_S4096x4096_S2x2048x4096 (⟨r.val * 2048 + s.val, hR⟩ : Fin 4096) r s q rfl]
  unfold Gflat
  have h1 : (⟨(r.val * 2048 + s.val) / 2048, by omega⟩ : Fin 2) = r := Fin.ext (by show (r.val * 2048 + s.val) / 2048 = r.val; have := s.isLt; omega)
  have h2 : (⟨(r.val * 2048 + s.val) % 2048, Nat.mod_lt _ (by decide)⟩ : Fin 2048) = s := Fin.ext (by show (r.val * 2048 + s.val) % 2048 = s.val; have := s.isLt; omega)
  show Gm m c (ix3 (⟨(r.val * 2048 + s.val) / 2048, _⟩ : Fin 2) (⟨(r.val * 2048 + s.val) % 2048, _⟩ : Fin 2048) q) = _
  rw [h1, h2]

/-- The result buffer after the host line that follows the region. -/
theorem tail_eq (c : Dev nD) :
    (Pipeline.afterTail₀ cfgs (dats m) 0 (V0 m) [hostOps1] c main_v0 : S2x2048x4096.Idx → EReal) = Gm m c := by
  rw [← reshape_Gflat m c, ← final7 m c]
  unfold Pipeline.afterTail₀
  show StableHlo.after hostOps1 _ (Proc.devRef .tc main_v0) = _
  after_results
  show (fun i => shapeCast S2x2048x4096 (Pipeline.withArrays spec0 c (V0 m c) (fun w => (dats m 0 c).arrAt w cfg0.N)
    (Proc.devRef .tc (Pipeline.arrRef spec0 7))) shapeCasts_S4096x4096_S2x2048x4096 i) = _
  rw [Pipeline.withArrays_arr spec0 launch0.win.arr_inj c _ _ 7]

/-! ## The run, read -/

/-- Every weakly fair execution of the program terminates with the result buffer at the layer's function of the
    argument arrays, and the argument arrays unchanged. -/
theorem run : θ_run defs (onTc (τ := τ) (main (F := Ideal))) ⟨m, fun _ => 0, ρ⟩ (fun r => ∀ c : Dev nD,
      r.2.mem ((c.tc : Thread nD τ).loc main_v0) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v0 (Pipeline.mem_restRefs_of main_v0 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.Mlp.Final

end
-- ==== Proof.RefIsG.lean ====
/-
  The reference's result, read index by index, is the layer's function `Cert.Mlp.G` of the argument arrays.

  Nothing is rearranged: each stage of the reference, read at an index built from its coordinates, is the
  corresponding subterm of `G`. The reference spells `σ(g)` as `1 / (1 + e^(-g))` with the constant `1.0`.
-/
import proofs.«105601_j27573690040806_2_alg».proof.Proof.Gen.ReferenceIdeal.Read
import proofs.«105601_j27573690040806_2_alg».proof.Proof.Spec
import Idealize.ShloMosaic.Lib.ValueIdx
import Idealize.ShloMosaic.PureOps.Ideal.Laws

noncomputable section

open scoped BigOperators

namespace Cert.Mlp.Ref

open Idealize.ShloMosaic Idealize.ShloMosaic.ValueIdx Cert.ReferenceIdeal Cert.ReferenceIdeal.Read

/-- The word `0x3F800000` is the number one. -/
theorem one_word : Ideal.ofBits .f32 0x3F800000#32 = 1 := by
  simp [Ideal.ofBits, Ideal.ieee, -EReal.coe_mul]; norm_num

/-- An inner projection of the reference (a `dot_general` plus the broadcast bias), at the index `(r, s, j)`. -/
theorem pre_eq (x : (⟨S2x2048x4096, .f32⟩ : BufTy).Contents (Elt Ideal)) (w : (⟨S11008x4096, .f32⟩ : BufTy).Contents (Elt Ideal))
    (b : (⟨S11008, .f32⟩ : BufTy).Contents (Elt Ideal)) (r : Fin 2) (s : Fin 2048) (j : Fin 11008) :
    val_main_v3 (F := Ideal) x w b (ix3 r s j) = lin x w b r s j := by
  have el : ∀ k : Fin 4096, lidx_main_v0 (ix3 r s j) k = ix3 r s k := fun k => funext fun a => by
    match a with | ⟨0, _⟩ => rfl | ⟨1, _⟩ => rfl | ⟨2, _⟩ => rfl
  have er : ∀ k : Fin 4096, ridx_main_v0 (ix3 r s j) k = ix2 j k := fun k => funext fun a => by
    match a with | ⟨0, _⟩ => rfl | ⟨1, _⟩ => rfl
  have eb : idx_main_v1 (idx_main_v2 (ix3 r s j)) = ix1 j := funext fun a => by
    match a with | ⟨0, _⟩ => rfl
  rw [val_main_v3_apply, val_main_v0_apply, val_main_v2_apply, val_main_v1_apply, eb]
  simp only [el, er, Ideal.addf_def]
  rfl

/-- The up projection of the reference, at the index `(r, s, j)`. -/
theorem up_eq (x : (⟨S2x2048x4096, .f32⟩ : BufTy).Contents (Elt Ideal)) (w : (⟨S11008x4096, .f32⟩ : BufTy).Contents (Elt Ideal))
    (b : (⟨S11008, .f32⟩ : BufTy).Contents (Elt Ideal)) (r : Fin 2) (s : Fin 2048) (j : Fin 11008) :
    val_main_v8 (F := Ideal) x w b (ix3 r s j) = lin x w b r s j := by
  have el : ∀ k : Fin 4096, lidx_main_v5 (ix3 r s j) k = ix3 r s k := fun k => funext fun a => by
    match a with | ⟨0, _⟩ => rfl | ⟨1, _⟩ => rfl | ⟨2, _⟩ => rfl
  have er : ∀ k : Fin 4096, ridx_main_v5 (ix3 r s j) k = ix2 j k := fun k => funext fun a => by
    match a with | ⟨0, _⟩ => rfl | ⟨1, _⟩ => rfl
  have eb : idx_main_v6 (idx_main_v7 (ix3 r s j)) = ix1 j := funext fun a => by
    match a with | ⟨0, _⟩ => rfl
  rw [val_main_v8_apply, val_main_v5_apply, val_main_v7_apply, val_main_v6_apply, eb]
  simp only [el, er, Ideal.addf_def]
  rfl

/-- The reference's gate `g * (1 / (1 + e^(-g)))` is `g · σ(g)`. -/
theorem gate_eq (x : (⟨S2x2048x4096, .f32⟩ : BufTy).Contents (Elt Ideal)) (w : (⟨S11008x4096, .f32⟩ : BufTy).Contents (Elt Ideal))
    (b : (⟨S11008, .f32⟩ : BufTy).Contents (Elt Ideal)) (r : Fin 2) (s : Fin 2048) (j : Fin 11008) :
    val_main_v4 (F := Ideal) x w b (ix3 r s j) = lin x w b r s j * Ideal.logistic (lin x w b r s j) := by
  rw [val_main_v4_apply, val_main_call0_v5_apply, val_main_call0_v4_apply, val_main_call0_cst_0_apply,
    val_main_call0_v3_apply, val_main_call0_v2_apply, val_main_call0_cst_apply, val_main_call0_v1_apply,
    val_main_call0_v0_apply, pre_eq]
  simp only [Ideal.ofBits_def, one_word, Ideal.mulf_def, Ideal.addf_def, Ideal.hostDivf_def, Ideal.hostUnary_exp_def,
    Ideal.hostNegf_def, Ideal.negf_def]
  rfl

/-- The reference's hidden value at the index `(r, s, j)`. -/
theorem hid_eq (x0 : (⟨S2x2048x4096, .f32⟩ : BufTy).Contents (Elt Ideal)) (x1 : (⟨S11008x4096, .f32⟩ : BufTy).Contents (Elt Ideal))
    (x2 : (⟨S11008, .f32⟩ : BufTy).Contents (Elt Ideal)) (x3 : (⟨S11008x4096, .f32⟩ : BufTy).Contents (Elt Ideal))
    (x4 : (⟨S11008, .f32⟩ : BufTy).Contents (Elt Ideal)) (r : Fin 2) (s : Fin 2048) (j : Fin 11008) :
    val_main_v9 (F := Ideal) x0 x1 x2 x3 x4 (ix3 r s j) = hid x0 x1 x2 x3 x4 r s j := by
  rw [val_main_v9_apply, gate_eq, up_eq, Ideal.mulf_def]
  rfl

/-- The reference's result is the layer's function of the argument arrays. -/
theorem ref_eq
    (x0 : (⟨S2x2048x4096, .f32⟩ : BufTy).Contents (Elt Ideal)) (x1 : (⟨S11008x4096, .f32⟩ : BufTy).Contents (Elt Ideal))
    (x2 : (⟨S11008, .f32⟩ : BufTy).Contents (Elt Ideal)) (x3 : (⟨S11008x4096, .f32⟩ : BufTy).Contents (Elt Ideal))
    (x4 : (⟨S11008, .f32⟩ : BufTy).Contents (Elt Ideal)) (x5 : (⟨S4096x11008, .f32⟩ : BufTy).Contents (Elt Ideal))
    (x6 : (⟨S4096, .f32⟩ : BufTy).Contents (Elt Ideal)) :
    val_main_v13 (F := Ideal) x0 x1 x2 x3 x4 x5 x6 = Cert.Mlp.G x0 x1 x2 x3 x4 x5 x6 := by
  funext i
  obtain ⟨r, s, h, rfl⟩ : ∃ (r : Fin 2) (s : Fin 2048) (h : Fin 4096), i = ix3 r s h := ⟨i 0, i 1, i 2, eq_ix3 i⟩
  have el : ∀ k : Fin 11008, lidx_main_v10 (ix3 r s h) k = ix3 r s k := fun k => funext fun a => by
    match a with | ⟨0, _⟩ => rfl | ⟨1, _⟩ => rfl | ⟨2, _⟩ => rfl
  have er : ∀ k : Fin 11008, ridx_main_v10 (ix3 r s h) k = ix2 h k := fun k => funext fun a => by
    match a with | ⟨0, _⟩ => rfl | ⟨1, _⟩ => rfl
  have eb : idx_main_v11 (idx_main_v12 (ix3 r s h)) = ix1 h := funext fun a => by
    match a with | ⟨0, _⟩ => rfl
  rw [val_main_v13_apply, val_main_v10_apply, val_main_v12_apply, val_main_v11_apply, eb]
  simp only [el, er, hid_eq, Ideal.addf_def]
  rfl

end Cert.Mlp.Ref

end
-- ==== Proof.lean ====
/-
  The certificate of the gated feed-forward kernel against its reference.

  The kernel tiles the layer `(silu(x·Wgᵀ + bg) ⊙ (x·Wuᵀ + bu))·Wdᵀ + bd` over 8 row blocks and 43 tiles of the
  inner width: at each tile it forms the tile's hidden values and their product with the tile's output weights, and
  accumulates the 43 partial products in the output block, adding the output bias at the last tile. The reference
  computes the same layer with three whole matrix products. On the extended reals a change of float format is the
  identity, the kernel's logistic is `1 / (1 + e^(-g))`, the expression the reference spells out, and the only law
  between the two sides is that a sum over the 11008 inner units is the sum over the 43 tiles of the sums over each
  tile's 256 units, in any additive commutative monoid: no finiteness of the inputs is used.

  The three frames: each kernel program's by running its body at each of the three kinds of grid point (first, middle,
  last tile of a row block) under the pipeline's launch; the reference's from its run. The idealization rewrote no
  operation, so there is nothing to preserve.
-/
import proofs.«105601_j27573690040806_2_alg».proof.Defs
import proofs.«105601_j27573690040806_2_alg».proof.Proof.Gen.Kernel
import proofs.«105601_j27573690040806_2_alg».proof.Proof.Gen.KernelIdeal
import proofs.«105601_j27573690040806_2_alg».proof.Proof.Gen.ReferenceIdeal
import proofs.«105601_j27573690040806_2_alg».proof.Proof.Gen.Pre_finite_inputs
import proofs.«105601_j27573690040806_2_alg».proof.Proof.Gen.ReferenceIdeal.Run
import proofs.«105601_j27573690040806_2_alg».proof.Proof.Gen.ReferenceIdeal.Read
import proofs.«105601_j27573690040806_2_alg».proof.Proof.FrameKernel
import proofs.«105601_j27573690040806_2_alg».proof.Proof.FrameKernelIdeal
import proofs.«105601_j27573690040806_2_alg».proof.Proof.Final
import proofs.«105601_j27573690040806_2_alg».proof.Proof.RefIsG

noncomputable section

namespace Cert.Proof

open Idealize.ShloMosaic Idealize.ShloMosaic.TcCoe Idealize.SL.Sem

/-- The kernel as printed runs to the end, faults nowhere and leaves its arguments unchanged. -/
theorem frame_k : Cert.frame_Kernel := fun m ρ _ => Cert.Kernel.Body.frame m ρ
/-- So does its reading on the extended reals. -/
theorem frame_ki : Cert.frame_KernelIdeal := fun m ρ _ => Cert.KernelIdeal.Body.frame m ρ
/-- And the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the layer's function of the (agreeing) argument arrays in their result buffers. -/
theorem algebraic : Cert.algebraic_KernelIdeal_ReferenceIdeal := by
  intro m ρ m' ρ' _ hagree
  refine ⟨fun c => Cert.Mlp.Final.Gm m c, Cert.Mlp.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.Mlp.Ref.ref_eq, (hagree c).1, (hagree c).2.1, (hagree c).2.2.1,
    (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
